-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg10 : FVec F S128x128 .f32) (main_arg11 : FVec F S128 .f32) (main_arg12 : FVec F S128x1 .f32) (main_arg13 : FVec F S1 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg12
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x64 .f32) (main_arg1 : IVec S1600000 32) (main_arg2 : IVec S1600000 32) (main_arg3 : IVec S100000 32) (main_arg4 : FVec F S64x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_v13 main_v16
-- ==== Kernel.lean ====
abbrev S100000x64 : Shape := ⟨2, ![100000, 64]⟩
abbrev S1600000 : Shape := ⟨1, ![1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S4000x64 : Shape := ⟨2, ![4000, 64]⟩
abbrev S4000x1 : Shape := ⟨2, ![4000, 1]⟩
abbrev S4000x128 : Shape := ⟨2, ![4000, 128]⟩
abbrev S1600000x128 : Shape := ⟨2, ![1600000, 128]⟩
abbrev S512x128 : Shape := ⟨2, ![512, 128]⟩
abbrev S512 : Shape := ⟨1, ![512]⟩
abbrev S512x1 : Shape := ⟨2, ![512, 1]⟩
abbrev S1x1 : Shape := ⟨2, ![1, 1]⟩

abbrev nBuf : Space → Nat
  | .hbm => 86
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .bf16⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .bf16⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x1, .f32⟩
  | .hbm, ⟨50, _⟩ => ⟨S100000x1, .f32⟩
  | .hbm, ⟨51, _⟩ => ⟨S1x128, .f32⟩
  | .hbm, ⟨52, _⟩ => ⟨S100000x128, .bf16⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .bf16⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x1, .f32⟩
  | .hbm, ⟨68, _⟩ => ⟨S1x128, .f32⟩
  | .hbm, ⟨69, _⟩ => ⟨S100000x128, .bf16⟩
  | .hbm, ⟨70, _⟩ => ⟨S100000x128, .f32⟩
  | .hbm, ⟨71, _⟩ => ⟨S_, .f32⟩
  | .hbm, ⟨72, _⟩ => ⟨S512x128, .f32⟩
  | .hbm, ⟨73, _⟩ => ⟨S100000x1, .i32⟩
  | .hbm, ⟨74, _⟩ => ⟨S512x128, .f32⟩
  | .hbm, ⟨75, _⟩ => ⟨S_, .f32⟩
  | .hbm, ⟨76, _⟩ => ⟨S100000, .f32⟩
  | .hbm, ⟨77, _⟩ => ⟨S_, .f32⟩
  | .hbm, ⟨78, _⟩ => ⟨S512, .f32⟩
  | .hbm, ⟨79, _⟩ => ⟨S100000x1, .i32⟩
  | .hbm, ⟨80, _⟩ => ⟨S512, .f32⟩
  | .hbm, ⟨81, _⟩ => ⟨S512x1, .f32⟩
  | .hbm, ⟨82, _⟩ => ⟨S1x128, .f32⟩
  | .hbm, ⟨83, _⟩ => ⟨S1x128, .f32⟩
  | .hbm, ⟨84, _⟩ => ⟨S1x1, .f32⟩
  | .hbm, ⟨85, _⟩ => ⟨S512x1, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x1, .f32⟩
  | .local _ .vmem, ⟨5, _⟩ => ⟨S4000x1, .f32⟩
  | .local _ .vmem, ⟨6, _⟩ => ⟨S64x128, .f32⟩
  | .local _ .vmem, ⟨7, _⟩ => ⟨S1x128, .f32⟩
  | .local _ .vmem, ⟨8, _⟩ => ⟨S4000x128, .bf16⟩
  | .local _ .vmem, ⟨9, _⟩ => ⟨S4000x128, .bf16⟩
  | .local _ .vmem, ⟨10, _⟩ => ⟨S4000x128, .f32⟩
  | .local _ .vmem, ⟨11, _⟩ => ⟨S4000x128, .f32⟩
  | .local _ .vmem, ⟨12, _⟩ => ⟨S4000x1, .f32⟩
  | .local _ .vmem, ⟨13, _⟩ => ⟨S4000x1, .f32⟩
  | .local _ .vmem, ⟨14, _⟩ => ⟨S128x128, .f32⟩
  | .local _ .vmem, ⟨15, _⟩ => ⟨S1x128, .f32⟩
  | .local _ .vmem, ⟨16, _⟩ => ⟨S4000x128, .bf16⟩
  | .local _ .vmem, ⟨17, _⟩ => ⟨S4000x128, .bf16⟩
  | .local _ .vmem, ⟨18, _⟩ => ⟨S512x128, .f32⟩
  | .local _ .vmem, ⟨19, _⟩ => ⟨S512x1, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x1, .f32⟩
  | .local _ .vmem, ⟨25, _⟩ => ⟨S1x1, .f32⟩
  | .local _ .vmem, ⟨26, _⟩ => ⟨S512x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S512x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bitsLt_bf16_f32 : FTy.bits .bf16 < FTy.bits .f32
  bcast_S_S100000x64 : S_.BroadcastsInDim S100000x64 (![] : Fin 0 → Fin S100000x64.rank)
  shapeCasts_S100000_S100000x1 : S100000.ShapeCasts S100000x1
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S_S512 : S_.BroadcastsInDim S512 (![] : Fin 0 → Fin S512.rank)
  shapeCasts_S512_S512x1 : S512.ShapeCasts S512x1
  shapeCasts_S1_S1x1 : S1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S512x1_S512x128 : S512x1.Broadcasts S512x128
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .bf16 = 32 ∨ (Rect.block (s := S100000x128) S4000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .bf16 = 32 ∨ (Rect.block (s := S100000x128) S4000x128.size (cc1_transform_4 i) (hinb1_4 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x1.size a ≤ S512x1.size a
  hwx2_1 : ∀ i : grid2.Coords, EltTy.bits .f32 = 32 ∨ (Rect.block (s := S512x1) S512x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x1.size a ≤ S128x1.size a
  hwx2_6 : ∀ i : grid2.Coords, EltTy.bits .f32 = 32 ∨ (Rect.block (s := S128x1) S128x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S512x1.size a ≤ S512x1.size a
  hwx2_8 : ∀ i : grid2.Coords, EltTy.bits .f32 = 32 ∨ (Rect.block (s := S512x1) S512x1.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v26) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v53) S512x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S128x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v56) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v57) S512x1.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S512x128 : Shape := ⟨2, ![512, 128]⟩
abbrev S512 : Shape := ⟨1, ![512]⟩
abbrev S512x1 : Shape := ⟨2, ![512, 1]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S100000x64, .f32⟩
  | 1 => ⟨S1600000, .i32⟩
  | 2 => ⟨S1600000, .i32⟩
  | 3 => ⟨S100000, .i32⟩
  | 4 => ⟨S64x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S_, .f32⟩
  | 22 => ⟨S100000, .f32⟩
  | 23 => ⟨S100000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S100000, .f32⟩
  | 33 => ⟨S100000x1, .f32⟩
  | 34 => ⟨S100000x64, .f32⟩
  | 35 => ⟨S100000x64, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S_, .f32⟩
  | 46 => ⟨S100000x64, .f32⟩
  | 47 => ⟨S1600000x1, .i32⟩
  | 48 => ⟨S100000x64, .f32⟩
  | 49 => ⟨S100000, .f32⟩
  | 50 => ⟨S100000x1, .f32⟩
  | 51 => ⟨S100000x64, .f32⟩
  | 52 => ⟨S100000x64, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .f32⟩
  | 61 => ⟨S1600000, .f32⟩
  | 62 => ⟨S_, .f32⟩
  | 63 => ⟨S100000, .f32⟩
  | 64 => ⟨S1600000x1, .i32⟩
  | 65 => ⟨S100000, .f32⟩
  | 66 => ⟨S_, .f32⟩
  | 67 => ⟨S_, .f32⟩
  | 68 => ⟨S100000, .f32⟩
  | 69 => ⟨S100000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S_, .f32⟩
  | 76 => ⟨S100000, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x128, .f32⟩
  | 91 => ⟨S_, .f32⟩
  | 92 => ⟨S100000x128, .f32⟩
  | 93 => ⟨S1600000x1, .i32⟩
  | 94 => ⟨S100000x128, .f32⟩
  | 95 => ⟨S100000, .f32⟩
  | 96 => ⟨S100000x1, .f32⟩
  | 97 => ⟨S100000x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S_, .f32⟩
  | 107 => ⟨S512x128, .f32⟩
  | 108 => ⟨S100000x1, .i32⟩
  | 109 => ⟨S512x128, .f32⟩
  | 110 => ⟨S_, .f32⟩
  | 111 => ⟨S100000, .f32⟩
  | 112 => ⟨S_, .f32⟩
  | 113 => ⟨S512, .f32⟩
  | 114 => ⟨S100000x1, .i32⟩
  | 115 => ⟨S512, .f32⟩
  | 116 => ⟨S_, .f32⟩
  | 117 => ⟨S_, .f32⟩
  | 118 => ⟨S512, .f32⟩
  | 119 => ⟨S512, .f32⟩
  | 120 => ⟨S512x1, .f32⟩
  | 121 => ⟨S512x128, .f32⟩
  | 122 => ⟨S512x128, .f32⟩
  | 123 => ⟨S512x128, .f32⟩
  | 124 => ⟨S1x128, .f32⟩
  | 125 => ⟨S512x128, .f32⟩
  | 126 => ⟨S512x128, .f32⟩
  | 127 => ⟨S_, .f32⟩
  | _ => ⟨S100000x64, .f32⟩

abbrev hbmTy0_1 (i : Nat) : BufTy := match i % 128 with
  | 0 => ⟨S512x128, .f32⟩
  | 1 => ⟨S512x128, .f32⟩
  | 2 => ⟨S512x128, .f32⟩
  | 3 => ⟨S1x128, .f32⟩
  | 4 => ⟨S512x128, .f32⟩
  | 5 => ⟨S512x128, .f32⟩
  | 6 => ⟨S_, .f32⟩
  | 7 => ⟨S512x128, .f32⟩
  | 8 => ⟨S512x128, .f32⟩
  | 9 => ⟨S512x1, .f32⟩
  | 10 => ⟨S1x1, .f32⟩
  | 11 => ⟨S512x1, .f32⟩
  | 12 => ⟨S512x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_5 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call2_cst : Ref sig .tc := ⟨.hbm, 57, rfl⟩
abbrev main_call2_v0 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_cst_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_8 : Ref sig .tc := ⟨.hbm, 66, rfl⟩
abbrev main_call3_v0 : Ref sig .tc := ⟨.hbm, 67, rfl⟩
abbrev main_call3_v1 : Ref sig .tc := ⟨.hbm, 68, rfl⟩
abbrev main_v36 : Ref sig .tc := ⟨.hbm, 69, rfl⟩
abbrev main_cst_9 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_10 : Ref sig .tc := ⟨.hbm, 74, rfl⟩
abbrev main_call4_v0 : Ref sig .tc := ⟨.hbm, 75, rfl⟩
abbrev main_call4_v1 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_c_11 : Ref sig .tc := ⟨.hbm, 82, rfl⟩
abbrev main_v45 : Ref sig .tc := ⟨.hbm, 83, rfl⟩
abbrev main_v46 : Ref sig .tc := ⟨.hbm, 84, rfl⟩
abbrev main_c_12 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_13 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_call5_cst : Ref sig .tc := ⟨.hbm, 103, rfl⟩
abbrev main_call5_v0 : Ref sig .tc := ⟨.hbm, 104, rfl⟩
abbrev main_v63 : Ref sig .tc := ⟨.hbm, 105, rfl⟩
abbrev main_cst_14 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_15 : Ref sig .tc := ⟨.hbm, 110, rfl⟩
abbrev main_v67 : Ref sig .tc := ⟨.hbm, 111, rfl⟩
abbrev main_cst_16 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_cst_17 : Ref sig .tc := ⟨.hbm, 116, rfl⟩
abbrev main_call6_v0 : Ref sig .tc := ⟨.hbm, 117, rfl⟩
abbrev main_call6_v1 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_call7_cst : Ref sig .tc := ⟨.hbm, 127, rfl⟩
abbrev main_call7_v0 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_call8_cst : Ref sig .tc := ⟨.hbm, 134, rfl⟩
abbrev main_call8_v0 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KernelRun.lean ====
/-
  The whole program's run with its result named. The program is three launches of dense kernels among three stretches
  of host operations; every weakly fair execution terminates without a fault, and at the end the result buffer holds
  what the LAST boundary of the chain of segments holds there (the contents after the third launch's write-backs), every
  argument array being as launched. What that last boundary holds is computed, segment by segment, in the modules that
  follow: each launch's output array as one function of its input arrays, each stretch of host operations as the
  operations' composed term.
-/
import proofs.«158197_j29703993819342_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_last : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.Whole

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«158197_j29703993819342_2_alg».proof.Proof.LibMatmulRows
import proofs.«158197_j29703993819342_2_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«158197_j29703993819342_2_alg».proof.Proof.LibMatmulRows
import proofs.«158197_j29703993819342_2_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibGraphConv.lean ====
/-
  GENERAL LEMMAS: the three dense stages of a two-layer graph convolution with mean pooling and a three-layer classifier, as
  functions on extended reals; nothing here mentions a program and every extent is arbitrary.

  For a matrix a of R rows and a degree d p per row, scaleRows a d multiplies row p by 1 / sqrt (d p).
  With affine h W b (p, q) = sum_k h(p, k) * W(k, q) + b(q) and the rectifier max(., 0):
    conv2 agg din W b      = rectifier (affine (scaleRows agg din) W b)
    conv1 agg din dout W b = scaleRows (conv2 agg din W b) dout
    meanRows s cnt (p, k)  = s(p, k) / max (cnt p) 1
    head s cnt W1 b1 W2 b2 W3 b3 = affine (rectifier (affine (rectifier (affine (meanRows s cnt) W1 b1)) W2 b2)) W3 b3.
  Row p of each result depends only on row p of the row-indexed inputs (ROW-LOCALITY), so a block of consecutive rows
  computes that block of rows of the whole result. Also here: the matrix unit's spelling of a row scaling and of the
  mean, read at an entry. No law of extended-real arithmetic is used beyond congruence, so no entry has to be finite.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«158197_j29703993819342_2_alg».proof.Proof.LibMatmulRows
import proofs.«158197_j29703993819342_2_alg».proof.Proof.LibBiasRows
import proofs.«158197_j29703993819342_2_alg».proof.Proof.LibDenseLayers
import proofs.«158197_j29703993819342_2_alg».proof.Proof.LibRowBias
import proofs.«158197_j29703993819342_2_alg».proof.Proof.LibLayout

noncomputable section

namespace Cert.GraphSpec

open Idealize.ShloMosaic Idealize.ShloMosaic.ValueIdx Cert.LibDenseLayers Cert.LibRowBias
open scoped BigOperators

/-- A matrix of R rows and K columns of extended reals. -/
abbrev Mat (R K : ℕ) := (⟨2, ![R, K]⟩ : Shape).Idx → EReal
/-- A vector of N extended reals. -/
abbrev Vc (N : ℕ) := (⟨1, ![N]⟩ : Shape).Idx → EReal

/-- The single-precision word of 1, as an extended real. -/
abbrev oneW : EReal := Ideal.ofBits .f32 0x3F800000#32

/-- Every row p multiplied by the reciprocal square root of the row's degree d p. -/
def scaleRows {R K : ℕ} (a : Mat R K) (d : Fin R → EReal) : Mat R K :=
  fun i => a i * Ideal.rsqrt (d (i 0))

theorem scaleRows_apply {R K : ℕ} (a : Mat R K) (d : Fin R → EReal) (p : Fin R) (k : Fin K) :
    scaleRows a d (ix2 p k) = a (ix2 p k) * Ideal.rsqrt (d p) := rfl

/-- The second graph convolution's dense stage: the aggregate scaled by the in-degrees, an affine layer, the rectifier. -/
def conv2 {R K N : ℕ} (agg : Mat R K) (din : Fin R → EReal) (W : Mat K N) (b : Vc N) : Mat R N :=
  stage1 (scaleRows agg din) W b

/-- The first graph convolution's dense stage: the same, then scaled by the out-degrees for the next layer. -/
def conv1 {R K N : ℕ} (agg : Mat R K) (din dout : Fin R → EReal) (W : Mat K N) (b : Vc N) : Mat R N :=
  scaleRows (conv2 agg din W b) dout

/-- The mean over a group: the group's sum divided by the larger of its count and 1. -/
def meanRows {R K : ℕ} (s : Mat R K) (cnt : Fin R → EReal) : Mat R K :=
  fun i => Ideal.div (s i) (max (cnt (i 0)) oneW)

theorem meanRows_apply {R K : ℕ} (s : Mat R K) (cnt : Fin R → EReal) (p : Fin R) (k : Fin K) :
    meanRows s cnt (ix2 p k) = Ideal.div (s (ix2 p k)) (max (cnt p) oneW) := rfl

/-- The classifier on the group means: two rectified affine layers and a last affine layer of one column. -/
def head {R K N M : ℕ} (s : Mat R K) (cnt : Fin R → EReal) (W1 : Mat K N) (b1 : Vc N) (W2 : Mat N M) (b2 : Vc M)
    (W3 : Mat M 1) (b3 : Vc 1) : Mat R 1 :=
  affine (stage1 (stage1 (meanRows s cnt) W1 b1) W2 b2) W3 b3

/-! ## Row-locality -/

/-- Row p of conv2 depends only on row p of the aggregate and on the in-degree of row p. -/
theorem conv2_row {R R' K N : ℕ} (agg : Mat R K) (agg' : Mat R' K) (din : Fin R → EReal) (din' : Fin R' → EReal)
    (W : Mat K N) (b : Vc N) (p : Fin R) (p' : Fin R')
    (ha : ∀ k : Fin K, agg (ix2 p k) = agg' (ix2 p' k)) (hd : din p = din' p') (q : Fin N) :
    conv2 agg din W b (ix2 p q) = conv2 agg' din' W b (ix2 p' q) :=
  stage1_row _ _ W b p p' (fun k => by rw [scaleRows_apply, scaleRows_apply, ha k, hd]) q

/-- Row p of conv1 depends only on row p of the aggregate and on the two degrees of row p. -/
theorem conv1_row {R R' K N : ℕ} (agg : Mat R K) (agg' : Mat R' K) (din dout : Fin R → EReal) (din' dout' : Fin R' → EReal)
    (W : Mat K N) (b : Vc N) (p : Fin R) (p' : Fin R')
    (ha : ∀ k : Fin K, agg (ix2 p k) = agg' (ix2 p' k)) (hd : din p = din' p') (ho : dout p = dout' p') (q : Fin N) :
    conv1 agg din dout W b (ix2 p q) = conv1 agg' din' dout' W b (ix2 p' q) := by
  show conv2 agg din W b (ix2 p q) * Ideal.rsqrt (dout p) = conv2 agg' din' W b (ix2 p' q) * Ideal.rsqrt (dout' p')
  rw [conv2_row agg agg' din din' W b p p' ha hd q, ho]

/-- The same with the weights and the bias replaced by equal ones. -/
theorem conv2_blk {R R' K N : ℕ} (agg : Mat R K) (agg' : Mat R' K) (din : Fin R → EReal) (din' : Fin R' → EReal)
    (W W' : Mat K N) (b b' : Vc N) (hW : W = W') (hb : b = b') (p : Fin R) (p' : Fin R')
    (ha : ∀ k : Fin K, agg (ix2 p k) = agg' (ix2 p' k)) (hd : din p = din' p') (q : Fin N) :
    conv2 agg din W b (ix2 p q) = conv2 agg' din' W' b' (ix2 p' q) := by
  subst hW; subst hb
  exact conv2_row agg agg' din din' W b p p' ha hd q

/-- The same for the first convolution. -/
theorem conv1_blk {R R' K N : ℕ} (agg : Mat R K) (agg' : Mat R' K) (din dout : Fin R → EReal) (din' dout' : Fin R' → EReal)
    (W W' : Mat K N) (b b' : Vc N) (hW : W = W') (hb : b = b') (p : Fin R) (p' : Fin R')
    (ha : ∀ k : Fin K, agg (ix2 p k) = agg' (ix2 p' k)) (hd : din p = din' p') (ho : dout p = dout' p') (q : Fin N) :
    conv1 agg din dout W b (ix2 p q) = conv1 agg' din' dout' W' b' (ix2 p' q) := by
  subst hW; subst hb
  exact conv1_row agg agg' din dout din' dout' W b p p' ha hd ho q

/-! ## The matrix unit's spellings of the row operations -/

/-- A matrix times the reciprocal square root of a degree column laid along the lanes, read at (p, k). -/
theorem scaled_of_lanes {R K : ℕ} (a : FVec Ideal ⟨2, ![R, K]⟩ .f32) (dv : FVec Ideal ⟨2, ![R, 1]⟩ .f32)
    (hca : (⟨2, ![R, K]⟩ : Shape).ShapeCasts ⟨2, ![R, K]⟩) (hcd : (⟨2, ![R, 1]⟩ : Shape).ShapeCasts ⟨2, ![R, 1]⟩)
    (hb : (⟨2, ![R, 1]⟩ : Shape).Broadcasts ⟨2, ![R, K]⟩) (p : Fin R) (k : Fin K) :
    mulf (shapeCast ⟨2, ![R, K]⟩ a hca) (broadcastTo ⟨2, ![R, K]⟩ (rsqrt (shapeCast ⟨2, ![R, 1]⟩ dv hcd)) hb) (ix2 p k)
      = scaleRows a (fun r => dv (ix2 r (0 : Fin 1))) (ix2 p k) := by
  show shapeCast ⟨2, ![R, K]⟩ a hca (ix2 p k)
      * broadcastTo ⟨2, ![R, K]⟩ (rsqrt (shapeCast ⟨2, ![R, 1]⟩ dv hcd)) hb (ix2 p k) = _
  rw [shapeCast_self, Cert.LibLayout.broadcastTo_a1_ab_apply]
  show a (ix2 p k) * Ideal.rsqrt (shapeCast ⟨2, ![R, 1]⟩ dv hcd (ix2 p (0 : Fin 1))) = _
  rw [shapeCast_self]
  rfl

/-- A degree column's reciprocal square root laid along the lanes, read at (p, q). -/
theorem rsqrt_lane {R N : ℕ} (dv : FVec Ideal ⟨2, ![R, 1]⟩ .f32)
    (hcd : (⟨2, ![R, 1]⟩ : Shape).ShapeCasts ⟨2, ![R, 1]⟩) (hb : (⟨2, ![R, 1]⟩ : Shape).Broadcasts ⟨2, ![R, N]⟩)
    (p : Fin R) (q : Fin N) :
    broadcastTo ⟨2, ![R, N]⟩ (rsqrt (shapeCast ⟨2, ![R, 1]⟩ dv hcd)) hb (ix2 p q) = Ideal.rsqrt (dv (ix2 p (0 : Fin 1))) := by
  rw [Cert.LibLayout.broadcastTo_a1_ab_apply]
  show Ideal.rsqrt (shapeCast ⟨2, ![R, 1]⟩ dv hcd (ix2 p (0 : Fin 1))) = _
  rw [shapeCast_self]

/-- A sum matrix divided by its count column, compared with 1 and laid along the lanes, read at (p, k): the mean. -/
theorem mean_of_lanes {R K : ℕ} (s : FVec Ideal ⟨2, ![R, K]⟩ .f32) (dv : FVec Ideal ⟨2, ![R, 1]⟩ .f32)
    (hcs : (⟨2, ![R, K]⟩ : Shape).ShapeCasts ⟨2, ![R, K]⟩) (hc : (⟨2, ![R, 1]⟩ : Shape).ShapeCasts ⟨2, ![R, 1]⟩)
    (hb : (⟨2, ![R, 1]⟩ : Shape).Broadcasts ⟨2, ![R, K]⟩) (p : Fin R) (k : Fin K) :
    divf (shapeCast ⟨2, ![R, K]⟩ s hcs)
        (broadcastTo ⟨2, ![R, K]⟩ (maximumf (shapeCast ⟨2, ![R, 1]⟩ dv hc)
          (broadcast ⟨2, ![R, 1]⟩ (Scalar.ofBits (F := Ideal) .f32 0x3F800000#32))) hb) (ix2 p k)
      = meanRows s (fun r => dv (ix2 r (0 : Fin 1))) (ix2 p k) := by
  show Ideal.div (shapeCast ⟨2, ![R, K]⟩ s hcs (ix2 p k))
      (broadcastTo ⟨2, ![R, K]⟩ (maximumf (shapeCast ⟨2, ![R, 1]⟩ dv hc)
          (broadcast ⟨2, ![R, 1]⟩ (Scalar.ofBits (F := Ideal) .f32 0x3F800000#32))) hb (ix2 p k)) = _
  rw [shapeCast_self, Cert.LibLayout.broadcastTo_a1_ab_apply]
  show Ideal.div (s (ix2 p k)) (max (shapeCast ⟨2, ![R, 1]⟩ dv hc (ix2 p (0 : Fin 1))) oneW) = _
  rw [shapeCast_self]
  rfl

end Cert.GraphSpec

end
-- ==== Proof.Conv1Blocks.lean ====
/-
  The first launch: the first graph convolution's dense stage, tiled over 25 blocks of 4000 rows.
  Each grid point t loads rows 4000 t … 4000 t + 3999 of the aggregate and of the two degree columns, the whole weight
  matrix and the one-row bias, and stores those rows of the result. The body's arithmetic at an entry (p, q) of the
  block is conv1 of the loaded blocks at (p, q); by row-locality that is conv1 of the WHOLE arrays at row 4000 t + p;
  and the 25 blocks tile the 100000 rows. So after the launch the output array is conv1 of the arrays the launch found.
-/
import proofs.«158197_j29703993819342_2_alg».proof.Proof.Gen.KernelIdeal.Frame
import proofs.«158197_j29703993819342_2_alg».proof.Proof.LibGraphConv
import Idealize.ShloMosaic.Lib.Pipeline.Value
import Idealize.ShloMosaic.Lib.ValueIdx

set_option maxRecDepth 16384

noncomputable section

namespace Cert.KernelIdeal.Conv1

open Cert.KernelIdeal Cert.KernelIdeal.Gen
open Idealize.ShloMosaic Idealize.ShloMosaic.TcCoe Idealize.ShloMosaic.ValueIdx Idealize.SL.Sem
open Cert.GraphSpec Cert.LibDenseLayers Cert.LibRowBias
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem d0_l0 (i : S4000x128.Idx) (s : dot_S4000x64_S64x128_S4000x128_1_0_0_1_n_n.contr.Idx) : (dot_S4000x64_S64x128_S4000x128_1_0_0_1_n_n.lhsIdx i s 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem d0_l1 (i : S4000x128.Idx) (s : dot_S4000x64_S64x128_S4000x128_1_0_0_1_n_n.contr.Idx) : (dot_S4000x64_S64x128_S4000x128_1_0_0_1_n_n.lhsIdx i s 1).val = (s ⟨0, by decide⟩).val :=
  dot_S4000x64_S64x128_S4000x128_1_0_0_1_n_n.lhsIdx_val_of_single rfl i s
theorem d0_r0 (i : S4000x128.Idx) (s : dot_S4000x64_S64x128_S4000x128_1_0_0_1_n_n.contr.Idx) : (dot_S4000x64_S64x128_S4000x128_1_0_0_1_n_n.rhsIdx i s 0).val = (s ⟨0, by decide⟩).val :=
  dot_S4000x64_S64x128_S4000x128_1_0_0_1_n_n.rhsIdx_val_of_single rfl i s
theorem d0_r1 (i : S4000x128.Idx) (s : dot_S4000x64_S64x128_S4000x128_1_0_0_1_n_n.contr.Idx) : (dot_S4000x64_S64x128_S4000x128_1_0_0_1_n_n.rhsIdx i s 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The body's stored value at entry (p, q) of a block, from the loaded blocks. -/
theorem pay_at (x0 : Vec Ideal S4000x64 .f32) (x1 x2 : Vec Ideal S4000x1 .f32) (x3 : Vec Ideal S64x128 .f32)
    (x4 : Vec Ideal S1x128 .f32) (p : Fin 4000) (q : Fin 128) :
    k0_pay1 x0 x1 x2 x3 x4 (ix2 p q)
      = conv1 (R := 4000) (K := 64) (N := 128) x0 (fun r => x1 (ix2 r (0 : Fin 1))) (fun r => x2 (ix2 r (0 : Fin 1))) x3 (rowOf x4) (ix2 p q) := by
  unfold k0_pay1
  show max (matmul dot_S4000x64_S64x128_S4000x128_1_0_0_1_n_n none
          (truncf .bf16 (mulf (shapeCast S4000x64 x0 shapeCasts_S4000x64_S4000x64)
            (broadcastTo S4000x64 (rsqrt (shapeCast S4000x1 x1 shapeCasts_S4000x1_S4000x1)) broadcasts_S4000x1_S4000x64)) bitsLt_bf16_f32)
          (truncf .bf16 x3 bitsLt_bf16_f32) (constant (F := Ideal) S4000x128 .f32 0x00000000#32) (ix2 p q)
        + broadcastTo S4000x128 (shapeCast S1x128 x4 shapeCasts_S1x128_S1x128) broadcasts_S1x128_S4000x128 (ix2 p q))
        (Ideal.ofBits .f32 0x00000000#32)
      * broadcastTo S4000x128 (rsqrt (shapeCast S4000x1 x2 shapeCasts_S4000x1_S4000x1)) broadcasts_S4000x1_S4000x128 (ix2 p q) = _
  rw [affineAt_of_matmul_row dot_S4000x64_S64x128_S4000x128_1_0_0_1_n_n rfl rfl d0_l0 d0_l1 d0_r0 d0_r1 shapeCasts_S1x128_S1x128 broadcasts_S1x128_S4000x128 _ _ x4 p q,
    rsqrt_lane x2 shapeCasts_S4000x1_S4000x1 broadcasts_S4000x1_S4000x128 p q]
  refine congrArg (fun z => max z (Ideal.ofBits .f32 0x00000000#32) * Ideal.rsqrt (x2 (ix2 p (0 : Fin 1)))) ?_
  exact affineAt_congr _ (scaleRows x0 (fun r => x1 (ix2 r (0 : Fin 1)))) x3 (rowOf x4) p p
    (fun k => scaled_of_lanes x0 x1 shapeCasts_S4000x64_S4000x64 shapeCasts_S4000x1_S4000x1 broadcasts_S4000x1_S4000x64 p k) q

/-- The output array after the launch, as a function of the arrays the launch found. -/
def G (c : Dev nD) : S100000x128.Idx → EReal :=
  conv1 (R := 100000) (K := 64) (N := 128) (V c main_v26) (fun r => V c main_v27 (ix2 r (0 : Fin 1)))
    (fun r => V c main_v28 (ix2 r (0 : Fin 1))) (V c main_arg4) (rowOf (V c main_v29))

/-- The block index maps over the grid: the row-tiled windows sit at block row t, the weights and the bias at (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 25 :=
  (by decide +kernel : ∀ t : Fin grid0.N, _)

/-- What point t writes back is block t of G. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S4000x64) hz, View.ld_unit_zero (S := S4000x1) hz, View.ld_unit_zero (S := S64x128) hz,
    View.ld_unit_zero (S := S1x128) hz]
  obtain ⟨e00, e01, e10, e11, e20, e21, e30, e31, e40, e41, e50, e51, ht⟩ := idx_facts t
  funext j
  obtain ⟨p, q, rfl⟩ : ∃ (p : Fin 4000) (q : Fin 128), j = ix2 p q := ⟨j 0, j 1, eq_ix2 j⟩
  have hp : p.val < 4000 := p.isLt
  have hq : q.val < 128 := q.isLt
  show k0_pay1 (iblk0 V c 0 t) (iblk0 V c 1 t) (iblk0 V c 2 t) (iblk0 V c 3 t) (iblk0 V c 4 t) (ix2 p q)
      = G V c (((cfg0.win 5).blk t).view.emb (ix2 p q))
  refine (pay_at _ _ _ _ _ p q).trans ?_
  have hemb : ((cfg0.win 5).blk t).view.emb (ix2 p q) = ix2 (⟨t.val * 4000 + p.val, by omega⟩ : Fin 100000) q := by
    funext a; apply Fin.ext
    match a with
    | ⟨0, _⟩ => show win0_5.index t (0 : Fin 2) * 4000 + 1 * p.val = t.val * 4000 + p.val; omega
    | ⟨1, _⟩ => show win0_5.index t (1 : Fin 2) * 128 + 1 * q.val = q.val; omega
  rw [hemb]
  unfold G
  have h3 : iblk0 V c 3 t = V c main_arg4 := by
    funext y
    show V c main_arg4 (((cfg0.win 3).blk t).view.emb y) = V c main_arg4 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 128 + 1 * (y 1).val = (y 1).val; omega
  have h4 : iblk0 V c 4 t = V c main_v29 := by
    funext y
    show V c main_v29 (((cfg0.win 4).blk t).view.emb y) = V c main_v29 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  refine conv1_blk _ _ _ _ _ _ _ _ _ _ h3 (congrArg rowOf h4) p ⟨t.val * 4000 + p.val, by omega⟩ (fun k => ?_) ?_ ?_ q
  · have hk : k.val < 64 := k.isLt
    show V c main_v26 (((cfg0.win 0).blk t).view.emb (ix2 p k)) = V c main_v26 (ix2 (⟨t.val * 4000 + p.val, by omega⟩ : Fin 100000) k)
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 64 + 1 * k.val = k.val; omega
  · show V c main_v27 (((cfg0.win 1).blk t).view.emb (ix2 p (0 : Fin 1))) = V c main_v27 (ix2 (⟨t.val * 4000 + p.val, by omega⟩ : Fin 100000) (0 : Fin 1))
    refine congrArg _ (funext fun a => Fin.ext ?_)
    match a with
    | ⟨0, _⟩ => show win0_1.index t (0 : Fin 2) * 4000 + 1 * p.val = t.val * 4000 + p.val; omega
    | ⟨1, _⟩ => show win0_1.index t (1 : Fin 2) * 1 + 1 * 0 = 0; omega
  · show V c main_v28 (((cfg0.win 2).blk t).view.emb (ix2 p (0 : Fin 1))) = V c main_v28 (ix2 (⟨t.val * 4000 + p.val, by omega⟩ : Fin 100000) (0 : Fin 1))
    refine congrArg _ (funext fun a => Fin.ext ?_)
    match a with
    | ⟨0, _⟩ => show win0_2.index t (0 : Fin 2) * 4000 + 1 * p.val = t.val * 4000 + p.val; omega
    | ⟨1, _⟩ => show win0_2.index t (1 : Fin 2) * 1 + 1 * 0 = 0; omega

/-- An index of the output array is in point t's block iff each coordinate is in the block's range. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v30).slice (win0_5.rect t)).set ↔ _
  rw [View.set_slice_whole, Rect.mem_set_unit]
  exact Iff.rfl

/-- The 25 blocks of 4000 rows cover the 100000 rows: row r is in block r / 4000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨e00, e01, e10, e11, e20, e21, e30, e31, e40, e41, e50, e51, ht⟩ := idx_facts t
  refine ⟨t, flush0_5 t, ?_⟩
  rw [mem_blk]
  intro a
  have htv : t.val = (i 0).val / 4000 := rfl
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- After the launch the output array is conv1 of the arrays the launch found. -/
theorem final (c : Dev nD) : (dat0 V c).arrAt 5 cfg0.N = G V c :=
  (dat0 V c).arrAt_eq_of_cover 5 (G V c) (fun t _ => flushed_eq V c t) (cover)

end Cert.KernelIdeal.Conv1

end
-- ==== Proof.Conv2Blocks.lean ====
/-
  The second launch: the second graph convolution's dense stage, tiled over 25 blocks of 4000 rows.
  Each grid point t loads rows 4000 t … 4000 t + 3999 of the aggregate and of the in-degree column, the whole weight
  matrix and the one-row bias, and stores those rows of the result: conv2 of the loaded blocks, which by row-locality
  is conv2 of the WHOLE arrays at row 4000 t + p; the 25 blocks tile the 100000 rows.
-/
import proofs.«158197_j29703993819342_2_alg».proof.Proof.Gen.KernelIdeal.Frame
import proofs.«158197_j29703993819342_2_alg».proof.Proof.LibGraphConv
import Idealize.ShloMosaic.Lib.Pipeline.Value
import Idealize.ShloMosaic.Lib.ValueIdx

set_option maxRecDepth 16384

noncomputable section

namespace Cert.KernelIdeal.Conv2

open Cert.KernelIdeal Cert.KernelIdeal.Gen
open Idealize.ShloMosaic Idealize.ShloMosaic.TcCoe Idealize.ShloMosaic.ValueIdx Idealize.SL.Sem
open Cert.GraphSpec Cert.LibDenseLayers Cert.LibRowBias
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem d1_l0 (i : S4000x128.Idx) (s : dot_S4000x128_S128x128_S4000x128_1_0_0_1_n_n.contr.Idx) : (dot_S4000x128_S128x128_S4000x128_1_0_0_1_n_n.lhsIdx i s 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem d1_l1 (i : S4000x128.Idx) (s : dot_S4000x128_S128x128_S4000x128_1_0_0_1_n_n.contr.Idx) : (dot_S4000x128_S128x128_S4000x128_1_0_0_1_n_n.lhsIdx i s 1).val = (s ⟨0, by decide⟩).val :=
  dot_S4000x128_S128x128_S4000x128_1_0_0_1_n_n.lhsIdx_val_of_single rfl i s
theorem d1_r0 (i : S4000x128.Idx) (s : dot_S4000x128_S128x128_S4000x128_1_0_0_1_n_n.contr.Idx) : (dot_S4000x128_S128x128_S4000x128_1_0_0_1_n_n.rhsIdx i s 0).val = (s ⟨0, by decide⟩).val :=
  dot_S4000x128_S128x128_S4000x128_1_0_0_1_n_n.rhsIdx_val_of_single rfl i s
theorem d1_r1 (i : S4000x128.Idx) (s : dot_S4000x128_S128x128_S4000x128_1_0_0_1_n_n.contr.Idx) : (dot_S4000x128_S128x128_S4000x128_1_0_0_1_n_n.rhsIdx i s 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's stored value at entry (p, q) of a block, from the loaded blocks. -/
theorem pay_at (x0 : Vec Ideal S4000x128 .f32) (x1 : Vec Ideal S4000x1 .f32) (x2 : Vec Ideal S128x128 .f32)
    (x3 : Vec Ideal S1x128 .f32) (p : Fin 4000) (q : Fin 128) :
    k1_pay1 x0 x1 x2 x3 (ix2 p q)
      = conv2 (R := 4000) (K := 128) (N := 128) x0 (fun r => x1 (ix2 r (0 : Fin 1))) x2 (rowOf x3) (ix2 p q) := by
  unfold k1_pay1
  show max (matmul dot_S4000x128_S128x128_S4000x128_1_0_0_1_n_n none
          (truncf .bf16 (mulf (shapeCast S4000x128 x0 shapeCasts_S4000x128_S4000x128)
            (broadcastTo S4000x128 (rsqrt (shapeCast S4000x1 x1 shapeCasts_S4000x1_S4000x1)) broadcasts_S4000x1_S4000x128)) bitsLt_bf16_f32)
          (truncf .bf16 x2 bitsLt_bf16_f32) (constant (F := Ideal) S4000x128 .f32 0x00000000#32) (ix2 p q)
        + broadcastTo S4000x128 (shapeCast S1x128 x3 shapeCasts_S1x128_S1x128) broadcasts_S1x128_S4000x128 (ix2 p q))
        (Ideal.ofBits .f32 0x00000000#32) = _
  rw [affineAt_of_matmul_row dot_S4000x128_S128x128_S4000x128_1_0_0_1_n_n rfl rfl d1_l0 d1_l1 d1_r0 d1_r1 shapeCasts_S1x128_S1x128 broadcasts_S1x128_S4000x128 _ _ x3 p q]
  refine congrArg (fun z => max z (Ideal.ofBits .f32 0x00000000#32)) ?_
  exact affineAt_congr _ (scaleRows x0 (fun r => x1 (ix2 r (0 : Fin 1)))) x2 (rowOf x3) p p
    (fun k => scaled_of_lanes x0 x1 shapeCasts_S4000x128_S4000x128 shapeCasts_S4000x1_S4000x1 broadcasts_S4000x1_S4000x128 p k) q

/-- The output array after the launch, as a function of the arrays the launch found. -/
def G (c : Dev nD) : S100000x128.Idx → EReal :=
  conv2 (R := 100000) (K := 128) (N := 128) (V c main_v41) (fun r => V c main_v42 (ix2 r (0 : Fin 1)))
    (V c main_arg6) (rowOf (V c main_v43))

/-- The block index maps over the grid: the row-tiled windows sit at block row t, the weights and the bias at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 25 :=
  (by decide +kernel : ∀ t : Fin grid1.N, _)

/-- What point t writes back is block t of G. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S4000x128) hz, View.ld_unit_zero (S := S4000x1) hz, View.ld_unit_zero (S := S128x128) hz,
    View.ld_unit_zero (S := S1x128) hz]
  obtain ⟨e00, e01, e10, e11, e20, e21, e30, e31, e40, e41, ht⟩ := idx_facts t
  funext j
  obtain ⟨p, q, rfl⟩ : ∃ (p : Fin 4000) (q : Fin 128), j = ix2 p q := ⟨j 0, j 1, eq_ix2 j⟩
  have hp : p.val < 4000 := p.isLt
  have hq : q.val < 128 := q.isLt
  show k1_pay1 (iblk1 V c 0 t) (iblk1 V c 1 t) (iblk1 V c 2 t) (iblk1 V c 3 t) (ix2 p q)
      = G V c (((cfg1.win 4).blk t).view.emb (ix2 p q))
  refine (pay_at _ _ _ _ p q).trans ?_
  have hemb : ((cfg1.win 4).blk t).view.emb (ix2 p q) = ix2 (⟨t.val * 4000 + p.val, by omega⟩ : Fin 100000) q := by
    funext a; apply Fin.ext
    match a with
    | ⟨0, _⟩ => show win1_4.index t (0 : Fin 2) * 4000 + 1 * p.val = t.val * 4000 + p.val; omega
    | ⟨1, _⟩ => show win1_4.index t (1 : Fin 2) * 128 + 1 * q.val = q.val; omega
  rw [hemb]
  unfold G
  have h2 : iblk1 V c 2 t = V c main_arg6 := by
    funext y
    show V c main_arg6 (((cfg1.win 2).blk t).view.emb y) = V c main_arg6 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have h3 : iblk1 V c 3 t = V c main_v43 := by
    funext y
    show V c main_v43 (((cfg1.win 3).blk t).view.emb y) = V c main_v43 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  refine conv2_blk _ _ _ _ _ _ _ _ h2 (congrArg rowOf h3) p ⟨t.val * 4000 + p.val, by omega⟩ (fun k => ?_) ?_ q
  · have hk : k.val < 128 := k.isLt
    show V c main_v41 (((cfg1.win 0).blk t).view.emb (ix2 p k)) = V c main_v41 (ix2 (⟨t.val * 4000 + p.val, by omega⟩ : Fin 100000) k)
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 128 + 1 * k.val = k.val; omega
  · show V c main_v42 (((cfg1.win 1).blk t).view.emb (ix2 p (0 : Fin 1))) = V c main_v42 (ix2 (⟨t.val * 4000 + p.val, by omega⟩ : Fin 100000) (0 : Fin 1))
    refine congrArg _ (funext fun a => Fin.ext ?_)
    match a with
    | ⟨0, _⟩ => show win1_1.index t (0 : Fin 2) * 4000 + 1 * p.val = t.val * 4000 + p.val; omega
    | ⟨1, _⟩ => show win1_1.index t (1 : Fin 2) * 1 + 1 * 0 = 0; omega

/-- An index of the output array is in point t's block iff each coordinate is in the block's range. -/
theorem mem_blk (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v44).slice (win1_4.rect t)).set ↔ _
  rw [View.set_slice_whole, Rect.mem_set_unit]
  exact Iff.rfl

/-- The 25 blocks of 4000 rows cover the 100000 rows: row r is in block r / 4000. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨e00, e01, e10, e11, e20, e21, e30, e31, e40, e41, ht⟩ := idx_facts t
  refine ⟨t, flush1_4 t, ?_⟩
  rw [mem_blk]
  intro a
  have htv : t.val = (i 0).val / 4000 := rfl
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-- After the launch the output array is conv2 of the arrays the launch found. -/
theorem final (c : Dev nD) : (dat1 V c).arrAt 4 cfg1.N = G V c :=
  (dat1 V c).arrAt_eq_of_cover 4 (G V c) (fun t _ => flushed_eq V c t) (cover)

end Cert.KernelIdeal.Conv2

end
-- ==== Proof.HeadBlock.lean ====
/-
  The third launch: the classifier on the 512 group means, one grid point whose blocks are the whole arrays.
  The body divides the sums by the counts (compared with 1), applies two rectified affine layers and a last affine
  layer of one column; read at an entry (p, 0) that is head of the loaded arrays. The one block is the whole output.
-/
import proofs.«158197_j29703993819342_2_alg».proof.Proof.Gen.KernelIdeal.Frame
import proofs.«158197_j29703993819342_2_alg».proof.Proof.LibGraphConv
import Idealize.ShloMosaic.Lib.Pipeline.Value
import Idealize.ShloMosaic.Lib.ValueIdx

set_option maxRecDepth 16384

noncomputable section

namespace Cert.KernelIdeal.Head

open Cert.KernelIdeal Cert.KernelIdeal.Gen
open Idealize.ShloMosaic Idealize.ShloMosaic.TcCoe Idealize.ShloMosaic.ValueIdx Idealize.SL.Sem
open Cert.GraphSpec Cert.LibDenseLayers Cert.LibRowBias
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem d2_l0 (i : S512x128.Idx) (s : dot_S512x128_S128x128_S512x128_1_0_0_1_n_n.contr.Idx) : (dot_S512x128_S128x128_S512x128_1_0_0_1_n_n.lhsIdx i s 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem d2_l1 (i : S512x128.Idx) (s : dot_S512x128_S128x128_S512x128_1_0_0_1_n_n.contr.Idx) : (dot_S512x128_S128x128_S512x128_1_0_0_1_n_n.lhsIdx i s 1).val = (s ⟨0, by decide⟩).val :=
  dot_S512x128_S128x128_S512x128_1_0_0_1_n_n.lhsIdx_val_of_single rfl i s
theorem d2_r0 (i : S512x128.Idx) (s : dot_S512x128_S128x128_S512x128_1_0_0_1_n_n.contr.Idx) : (dot_S512x128_S128x128_S512x128_1_0_0_1_n_n.rhsIdx i s 0).val = (s ⟨0, by decide⟩).val :=
  dot_S512x128_S128x128_S512x128_1_0_0_1_n_n.rhsIdx_val_of_single rfl i s
theorem d2_r1 (i : S512x128.Idx) (s : dot_S512x128_S128x128_S512x128_1_0_0_1_n_n.contr.Idx) : (dot_S512x128_S128x128_S512x128_1_0_0_1_n_n.rhsIdx i s 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

theorem d3_l0 (i : S512x1.Idx) (s : dot_S512x128_S128x1_S512x1_1_0_0_1_n_n.contr.Idx) : (dot_S512x128_S128x1_S512x1_1_0_0_1_n_n.lhsIdx i s 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem d3_l1 (i : S512x1.Idx) (s : dot_S512x128_S128x1_S512x1_1_0_0_1_n_n.contr.Idx) : (dot_S512x128_S128x1_S512x1_1_0_0_1_n_n.lhsIdx i s 1).val = (s ⟨0, by decide⟩).val :=
  dot_S512x128_S128x1_S512x1_1_0_0_1_n_n.lhsIdx_val_of_single rfl i s
theorem d3_r0 (i : S512x1.Idx) (s : dot_S512x128_S128x1_S512x1_1_0_0_1_n_n.contr.Idx) : (dot_S512x128_S128x1_S512x1_1_0_0_1_n_n.rhsIdx i s 0).val = (s ⟨0, by decide⟩).val :=
  dot_S512x128_S128x1_S512x1_1_0_0_1_n_n.rhsIdx_val_of_single rfl i s
theorem d3_r1 (i : S512x1.Idx) (s : dot_S512x128_S128x1_S512x1_1_0_0_1_n_n.contr.Idx) : (dot_S512x128_S128x1_S512x1_1_0_0_1_n_n.rhsIdx i s 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl

/-- The body's stored value at entry (p, u) of the output, from the loaded arrays. -/
theorem pay_at (x0 : Vec Ideal S512x1 .f32) (x1 : Vec Ideal S512x128 .f32) (x2 : Vec Ideal S128x128 .f32) (x3 : Vec Ideal S1x128 .f32)
    (x4 : Vec Ideal S128x128 .f32) (x5 : Vec Ideal S1x128 .f32) (x6 : Vec Ideal S128x1 .f32) (x7 : Vec Ideal S1x1 .f32)
    (p : Fin 512) (u : Fin 1) :
    k2_pay1 x0 x1 x2 x3 x4 x5 x6 x7 (ix2 p u)
      = head (R := 512) (K := 128) (N := 128) (M := 128) x1 (fun r => x0 (ix2 r (0 : Fin 1))) x2 (rowOf x3) x4 (rowOf x5) x6 (rowOf x7) (ix2 p u) := by
  unfold k2_pay1
  have h0 : ∀ k : Fin 128, (truncf .bf16 (divf (shapeCast S512x128 x1 shapeCasts_S512x128_S512x128)
        (broadcastTo S512x128 (maximumf (shapeCast S512x1 x0 shapeCasts_S512x1_S512x1)
          (broadcast S512x1 (Scalar.ofBits (F := Ideal) .f32 0x3F800000#32))) broadcasts_S512x1_S512x128)) bitsLt_bf16_f32 : FVec Ideal S512x128 .bf16) (ix2 p k)
      = meanRows (R := 512) (K := 128) x1 (fun r => x0 (ix2 r (0 : Fin 1))) (ix2 p k) :=
    fun k => mean_of_lanes x1 x0 shapeCasts_S512x128_S512x128 shapeCasts_S512x1_S512x1 broadcasts_S512x1_S512x128 p k
  generalize (truncf .bf16 (divf (shapeCast S512x128 x1 shapeCasts_S512x128_S512x128)
        (broadcastTo S512x128 (maximumf (shapeCast S512x1 x0 shapeCasts_S512x1_S512x1)
          (broadcast S512x1 (Scalar.ofBits (F := Ideal) .f32 0x3F800000#32))) broadcasts_S512x1_S512x128)) bitsLt_bf16_f32 : FVec Ideal S512x128 .bf16) = m0 at h0 ⊢
  have h1 : ∀ k : Fin 128, (truncf .bf16 (maximumf (addf (matmul dot_S512x128_S128x128_S512x128_1_0_0_1_n_n none m0 (truncf .bf16 x2 bitsLt_bf16_f32)
          (constant (F := Ideal) S512x128 .f32 0x00000000#32))
        (broadcastTo S512x128 (shapeCast S1x128 x3 shapeCasts_S1x128_S1x128) broadcasts_S1x128_S512x128))
        (broadcast S512x128 (Scalar.ofBits (F := Ideal) .f32 0x00000000#32))) bitsLt_bf16_f32 : FVec Ideal S512x128 .bf16) (ix2 p k)
      = stage1 (meanRows (R := 512) (K := 128) x1 (fun r => x0 (ix2 r (0 : Fin 1)))) x2 (rowOf x3) (ix2 p k) := fun k => by
    show max (matmul dot_S512x128_S128x128_S512x128_1_0_0_1_n_n none m0 (truncf .bf16 x2 bitsLt_bf16_f32) (constant (F := Ideal) S512x128 .f32 0x00000000#32) (ix2 p k)
        + broadcastTo S512x128 (shapeCast S1x128 x3 shapeCasts_S1x128_S1x128) broadcasts_S1x128_S512x128 (ix2 p k))
        (Ideal.ofBits .f32 0x00000000#32) = max (affineAt (meanRows (R := 512) (K := 128) x1 (fun r => x0 (ix2 r (0 : Fin 1)))) x2 (rowOf x3) p k) _
    rw [affineAt_of_matmul_row dot_S512x128_S128x128_S512x128_1_0_0_1_n_n rfl rfl d2_l0 d2_l1 d2_r0 d2_r1 shapeCasts_S1x128_S1x128 broadcasts_S1x128_S512x128 _ _ x3 p k]
    exact congrArg (fun z => max z (Ideal.ofBits .f32 0x00000000#32)) (affineAt_congr _ _ x2 (rowOf x3) p p h0 k)
  generalize (truncf .bf16 (maximumf (addf (matmul dot_S512x128_S128x128_S512x128_1_0_0_1_n_n none m0 (truncf .bf16 x2 bitsLt_bf16_f32)
          (constant (F := Ideal) S512x128 .f32 0x00000000#32))
        (broadcastTo S512x128 (shapeCast S1x128 x3 shapeCasts_S1x128_S1x128) broadcasts_S1x128_S512x128))
        (broadcast S512x128 (Scalar.ofBits (F := Ideal) .f32 0x00000000#32))) bitsLt_bf16_f32 : FVec Ideal S512x128 .bf16) = m1 at h1 ⊢
  have h2 : ∀ k : Fin 128, (truncf .bf16 (maximumf (addf (matmul dot_S512x128_S128x128_S512x128_1_0_0_1_n_n none m1 (truncf .bf16 x4 bitsLt_bf16_f32)
          (constant (F := Ideal) S512x128 .f32 0x00000000#32))
        (broadcastTo S512x128 (shapeCast S1x128 x5 shapeCasts_S1x128_S1x128) broadcasts_S1x128_S512x128))
        (broadcast S512x128 (Scalar.ofBits (F := Ideal) .f32 0x00000000#32))) bitsLt_bf16_f32 : FVec Ideal S512x128 .bf16) (ix2 p k)
      = stage1 (stage1 (meanRows (R := 512) (K := 128) x1 (fun r => x0 (ix2 r (0 : Fin 1)))) x2 (rowOf x3)) x4 (rowOf x5) (ix2 p k) := fun k => by
    show max (matmul dot_S512x128_S128x128_S512x128_1_0_0_1_n_n none m1 (truncf .bf16 x4 bitsLt_bf16_f32) (constant (F := Ideal) S512x128 .f32 0x00000000#32) (ix2 p k)
        + broadcastTo S512x128 (shapeCast S1x128 x5 shapeCasts_S1x128_S1x128) broadcasts_S1x128_S512x128 (ix2 p k))
        (Ideal.ofBits .f32 0x00000000#32)
      = max (affineAt (stage1 (meanRows (R := 512) (K := 128) x1 (fun r => x0 (ix2 r (0 : Fin 1)))) x2 (rowOf x3)) x4 (rowOf x5) p k) _
    rw [affineAt_of_matmul_row dot_S512x128_S128x128_S512x128_1_0_0_1_n_n rfl rfl d2_l0 d2_l1 d2_r0 d2_r1 shapeCasts_S1x128_S1x128 broadcasts_S1x128_S512x128 _ _ x5 p k]
    exact congrArg (fun z => max z (Ideal.ofBits .f32 0x00000000#32)) (affineAt_congr _ _ x4 (rowOf x5) p p h1 k)
  generalize (truncf .bf16 (maximumf (addf (matmul dot_S512x128_S128x128_S512x128_1_0_0_1_n_n none m1 (truncf .bf16 x4 bitsLt_bf16_f32)
          (constant (F := Ideal) S512x128 .f32 0x00000000#32))
        (broadcastTo S512x128 (shapeCast S1x128 x5 shapeCasts_S1x128_S1x128) broadcasts_S1x128_S512x128))
        (broadcast S512x128 (Scalar.ofBits (F := Ideal) .f32 0x00000000#32))) bitsLt_bf16_f32 : FVec Ideal S512x128 .bf16) = m2 at h2 ⊢
  show matmul dot_S512x128_S128x1_S512x1_1_0_0_1_n_n none m2 (truncf .bf16 x6 bitsLt_bf16_f32) (constant (F := Ideal) S512x1 .f32 0x00000000#32) (ix2 p u)
      + broadcastTo S512x1 (shapeCast S1x1 x7 shapeCasts_S1x1_S1x1) broadcasts_S1x1_S512x1 (ix2 p u)
    = affineAt (stage1 (stage1 (meanRows (R := 512) (K := 128) x1 (fun r => x0 (ix2 r (0 : Fin 1)))) x2 (rowOf x3)) x4 (rowOf x5)) x6 (rowOf x7) p u
  rw [affineAt_of_matmul_row dot_S512x128_S128x1_S512x1_1_0_0_1_n_n rfl rfl d3_l0 d3_l1 d3_r0 d3_r1 shapeCasts_S1x1_S1x1 broadcasts_S1x1_S512x1 _ _ x7 p u]
  exact affineAt_congr _ _ x6 (rowOf x7) p p h2 u

/-- The output array after the launch, as a function of the arrays the launch found. -/
def G (c : Dev nD) : S512x1.Idx → EReal :=
  head (R := 512) (K := 128) (N := 128) (M := 128) (V c main_v48) (fun r => V c main_v53 (ix2 r (0 : Fin 1)))
    (V c main_arg8) (rowOf (V c main_v54)) (V c main_arg10) (rowOf (V c main_v55)) (V c main_arg12) (rowOf (V c main_v56))

/-- head of equal arguments. -/
theorem head_congr {R K N M : ℕ} {s s' : Mat R K} {cnt cnt' : Fin R → EReal} {W1 W1' : Mat K N} {b1 b1' : Vc N}
    {W2 W2' : Mat N M} {b2 b2' : Vc M} {W3 W3' : Mat M 1} {b3 b3' : Vc 1}
    (hs : s = s') (hc : cnt = cnt') (h1 : W1 = W1') (hb1 : b1 = b1') (h2 : W2 = W2') (hb2 : b2 = b2')
    (h3 : W3 = W3') (hb3 : b3 = b3') (i : (⟨2, ![R, 1]⟩ : Shape).Idx) :
    head s cnt W1 b1 W2 b2 W3 b3 i = head s' cnt' W1' b1' W2' b2' W3' b3' i := by
  subst hs; subst hc; subst h1; subst hb1; subst h2; subst hb2; subst h3; subst hb3; rfl

/-- Every window's one block sits at (0, 0). -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

set_option maxHeartbeats 2000000 in
/-- What the one point writes back is the whole of G. -/
theorem flushed_eq (c : Dev nD) (t : Fin cfg2.N) :
    (dat2 V c).flushed 8 t = ((cfg2.win 8).blk t).view.read (Elt Ideal) (G V c) := by
  show (cfg2.win 8).cut (grid2.coords t) ((dat2 V c).after 8 t) = _
  rw [after2_8]
  unfold out2_8
  rw [View.canon_unit_zero hz]
  simp only [View.ld_unit_zero (S := S512x128) hz, View.ld_unit_zero (S := S512x1) hz, View.ld_unit_zero (S := S128x128) hz,
    View.ld_unit_zero (S := S1x128) hz, View.ld_unit_zero (S := S128x1) hz, View.ld_unit_zero (S := S1x1) hz]
  obtain ⟨e00, e01, e10, e11, e20, e21, e30, e31, e40, e41, e50, e51, e60, e61, e70, e71, e80, e81⟩ := idx_facts t
  funext j
  obtain ⟨p, u, rfl⟩ : ∃ (p : Fin 512) (u : Fin 1), j = ix2 p u := ⟨j 0, j 1, eq_ix2 j⟩
  have hp : p.val < 512 := p.isLt
  have hu : u.val < 1 := u.isLt
  show k2_pay1 (iblk2 V c 1 t) (iblk2 V c 0 t) (iblk2 V c 2 t) (iblk2 V c 3 t) (iblk2 V c 4 t) (iblk2 V c 5 t) (iblk2 V c 6 t) (iblk2 V c 7 t) (ix2 p u)
      = G V c (((cfg2.win 8).blk t).view.emb (ix2 p u))
  refine (pay_at _ _ _ _ _ _ _ _ p u).trans ?_
  have hemb : ((cfg2.win 8).blk t).view.emb (ix2 p u) = ix2 p u := by
    funext a; apply Fin.ext
    match a with
    | ⟨0, _⟩ => show win2_8.index t (0 : Fin 2) * 512 + 1 * p.val = p.val; omega
    | ⟨1, _⟩ => show win2_8.index t (1 : Fin 2) * 1 + 1 * u.val = u.val; omega
  rw [hemb]
  unfold G
  have h0 : iblk2 V c 0 t = V c main_v48 := by
    funext y
    show V c main_v48 (((cfg2.win 0).blk t).view.emb y) = V c main_v48 y
    refine congrArg _ (funext fun a => Fin.ext ?_)
    match a with
    | ⟨0, _⟩ => show win2_0.index t (0 : Fin 2) * 512 + 1 * (y 0).val = (y 0).val; omega
    | ⟨1, _⟩ => show win2_0.index t (1 : Fin 2) * 128 + 1 * (y 1).val = (y 1).val; omega
  have h1 : iblk2 V c 1 t = V c main_v53 := by
    funext y
    show V c main_v53 (((cfg2.win 1).blk t).view.emb y) = V c main_v53 y
    refine congrArg _ (funext fun a => Fin.ext ?_)
    match a with
    | ⟨0, _⟩ => show win2_1.index t (0 : Fin 2) * 512 + 1 * (y 0).val = (y 0).val; omega
    | ⟨1, _⟩ => show win2_1.index t (1 : Fin 2) * 1 + 1 * (y 1).val = (y 1).val; omega
  have h2 : iblk2 V c 2 t = V c main_arg8 := by
    funext y
    show V c main_arg8 (((cfg2.win 2).blk t).view.emb y) = V c main_arg8 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  have h3 : iblk2 V c 3 t = V c main_v54 := by
    funext y
    show V c main_v54 (((cfg2.win 3).blk t).view.emb y) = V c main_v54 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  have h4 : iblk2 V c 4 t = V c main_arg10 := by
    funext y
    show V c main_arg10 (((cfg2.win 4).blk t).view.emb y) = V c main_arg10 y
    refine congrArg _ (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  have h5 : iblk2 V c 5 t = V c main_v55 := by
    funext y
    show V c main_v55 (((cfg2.win 5).blk t).view.emb y) = V c main_v55 y
    refine congrArg _ (funext fun a => Fin.ext ?_)
    match a with
    | ⟨0, _⟩ => show win2_5.index t (0 : Fin 2) * 1 + 1 * (y 0).val = (y 0).val; omega
    | ⟨1, _⟩ => show win2_5.index t (1 : Fin 2) * 128 + 1 * (y 1).val = (y 1).val; omega
  have h6 : iblk2 V c 6 t = V c main_arg12 := by
    funext y
    show V c main_arg12 (((cfg2.win 6).blk t).view.emb y) = V c main_arg12 y
    refine congrArg _ (funext fun a => Fin.ext ?_)
    match a with
    | ⟨0, _⟩ => show win2_6.index t (0 : Fin 2) * 128 + 1 * (y 0).val = (y 0).val; omega
    | ⟨1, _⟩ => show win2_6.index t (1 : Fin 2) * 1 + 1 * (y 1).val = (y 1).val; omega
  have h7 : iblk2 V c 7 t = V c main_v56 := by
    funext y
    show V c main_v56 (((cfg2.win 7).blk t).view.emb y) = V c main_v56 y
    refine congrArg _ (funext fun a => Fin.ext ?_)
    match a with
    | ⟨0, _⟩ => show win2_7.index t (0 : Fin 2) * 1 + 1 * (y 0).val = (y 0).val; omega
    | ⟨1, _⟩ => show win2_7.index t (1 : Fin 2) * 1 + 1 * (y 1).val = (y 1).val; omega
  exact head_congr h0 (funext fun r => congrFun h1 (ix2 r (0 : Fin 1))) h2 (congrArg rowOf h3) h4 (congrArg rowOf h5) h6 (congrArg rowOf h7) (ix2 p u)

/-- An index of the output array is in the point's block iff each coordinate is in the block's range. -/
theorem mem_blk (t : Fin cfg2.N) (i : S512x1.Idx) :
    i ∈ ((cfg2.win 8).blk t).view.set ↔ ∀ a : Fin 2, win2_8.index t a * S512x1.size a ≤ (i a).val ∧ (i a).val < win2_8.index t a * S512x1.size a + S512x1.size a := by
  show i ∈ ((View.whole main_v57).slice (win2_8.rect t)).set ↔ _
  rw [View.set_slice_whole, Rect.mem_set_unit]
  exact Iff.rfl

/-- The one block is the whole output. -/
theorem cover (i : S512x1.Idx) : ∃ t : Fin cfg2.N, (cfg2.win 8).flush t = true ∧ i ∈ ((cfg2.win 8).blk t).view.set := by
  have hi0 : (i 0).val < 512 := (i 0).isLt
  have hi1 : (i 1).val < 1 := (i 1).isLt
  have hN : cfg2.N = 1 := N_2
  let t : Fin cfg2.N := ⟨0, by rw [hN]; omega⟩
  obtain ⟨e00, e01, e10, e11, e20, e21, e30, e31, e40, e41, e50, e51, e60, e61, e70, e71, e80, e81⟩ := idx_facts t
  refine ⟨t, flush2_8 t, ?_⟩
  rw [mem_blk]
  intro a
  match a with
  | ⟨0, _⟩ => show win2_8.index t (0 : Fin 2) * 512 ≤ (i 0).val ∧ (i 0).val < win2_8.index t (0 : Fin 2) * 512 + 512; omega
  | ⟨1, _⟩ => show win2_8.index t (1 : Fin 2) * 1 ≤ (i 1).val ∧ (i 1).val < win2_8.index t (1 : Fin 2) * 1 + 1; omega

/-- After the launch the output array is head of the arrays the launch found. -/
theorem final (c : Dev nD) : (dat2 V c).arrAt 8 cfg2.N = G V c :=
  (dat2 V c).arrAt_eq_of_cover 8 (G V c) (fun t _ => flushed_eq V c t) (cover)

end Cert.KernelIdeal.Head

end
-- ==== Proof.LibHostDense.lean ====
/-
  GENERAL LEMMAS: the host's spellings of the dense stages, read as whole-array functions on extended reals; nothing here mentions a
  program and every extent is arbitrary.

  A vector of R row statistics laid out as a column [R, 1] and then along the lanes reads, at (p, k), the vector at p;
  a scalar broadcast to every entry reads the scalar; a bias vector of ANY length broadcast to one row and along the
  rows reads the bias at the column. With these, x * rsqrt(d)[:, None] is scaleRows, a dot_general plus bias is the affine
  layer, max(., 0) is the rectifier, s / max(1, cnt)[:, None] is the mean (max is symmetric), and so the host's lines for
  a graph convolution's dense stage and for the classifier are conv2, conv1 and head. No entry needs to be finite.
-/
import proofs.«158197_j29703993819342_2_alg».proof.Proof.LibGraphConv

noncomputable section

namespace Cert.HostSpell

open Idealize.ShloMosaic Idealize.ShloMosaic.ValueIdx Cert.LibDenseLayers Cert.GraphSpec
open scoped BigOperators

variable {α : Type}

/-- A vector laid out as a column and then along K lanes reads, at (p, k), the vector at p. -/
theorem col_host {R K : ℕ} (v : (⟨1, ![R]⟩ : Shape).Idx → α)
    (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2)) (p : Fin R) (k : Fin K) :
    broadcastInDim ⟨2, ![R, K]⟩ ![0, 1] h2 (broadcastInDim ⟨2, ![R, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if R = 1 then 0 else p.val
      split
      · have := p.isLt; omega
      · rfl
    | ⟨1, _⟩ => show (0 : ℕ) = if (1 : ℕ) = 1 then 0 else k.val; rw [if_pos rfl]
  · match a with
    | ⟨0, _⟩ =>
      show p.val = if R = 1 then 0 else p.val
      split
      · have := p.isLt; omega
      · rfl

/-- A scalar broadcast to every entry of an array reads the scalar. -/
theorem splat_host {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A bias vector of any length broadcast to one row and then along R rows reads, at (r, c), the bias at c. -/
theorem bias_any {R n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

section Stages

variable {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2))
    (hc1 : (⟨1, ![R]⟩ : Shape).BroadcastsInDim ⟨2, ![R, 1]⟩ (![0] : Fin 1 → Fin 2))
    (hcK : (⟨2, ![R, 1]⟩ : Shape).BroadcastsInDim ⟨2, ![R, K]⟩ (![0, 1] : Fin 2 → Fin 2))
    (hcN : (⟨2, ![R, 1]⟩ : Shape).BroadcastsInDim ⟨2, ![R, N]⟩ (![0, 1] : Fin 2 → Fin 2))

include hrank hsize hl0 hl1 hr0 hr1 in
/-- The host's dot_general plus a bias of any length broadcast twice is the affine layer. -/
theorem affine_of_dot_any (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, bias_any b h1 h2 p q]
  rfl

/-- The host's max with a broadcast zero is the rectifier. -/
theorem relu_of_host (a : FVec Ideal ⟨2, ![R, N]⟩ .f32) :
    maximumf a (broadcastInDim ⟨2, ![R, N]⟩ ![] h0 (constant (F := Ideal) ⟨0, ![]⟩ .f32 0x00000000#32)) = relu a := by
  funext j
  show max (a j) (broadcastInDim ⟨2, ![R, N]⟩ ![] h0 (constant (F := Ideal) ⟨0, ![]⟩ .f32 0x00000000#32) j) = max (a j) _
  rw [splat_host]
  rfl

include hrank hsize hl0 hl1 hr0 hr1 in
/-- The host's rectified dot_general-plus-bias is the rectified affine layer. -/
theorem stage1_of_host (h : FVec Ideal ⟨2, ![R, K]⟩ .f32) (W : FVec Ideal ⟨2, ![K, N]⟩ .f32) (b : FVec Ideal ⟨1, ![N]⟩ .f32) :
    maximumf (addf (Host.dotGeneral d none h W)
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32)) = stage1 h W b := by
  rw [affine_of_dot_any d hrank hsize hl0 hl1 hr0 hr1 h1 h2 h W b, relu_of_host h0]
  rfl

/-- A matrix times the reciprocal square roots of a degree vector laid along the rows is scaleRows. -/
theorem scaled_of_host (a : FVec Ideal ⟨2, ![R, K]⟩ .f32) (dg : FVec Ideal ⟨1, ![R]⟩ .f32) :
    mulf a (broadcastInDim ⟨2, ![R, K]⟩ ![0, 1] hcK (broadcastInDim ⟨2, ![R, 1]⟩ ![0] hc1 (Host.rsqrt dg)))
      = scaleRows a (fun r => dg (ix1 r)) := by
  funext j
  obtain ⟨p, k, rfl⟩ : ∃ (p : Fin R) (k : Fin K), j = ix2 p k := ⟨j 0, j 1, eq_ix2 j⟩
  show a (ix2 p k) * broadcastInDim ⟨2, ![R, K]⟩ ![0, 1] hcK (broadcastInDim ⟨2, ![R, 1]⟩ ![0] hc1 (Host.rsqrt dg)) (ix2 p k) = _
  rw [col_host (Host.rsqrt dg) hc1 hcK p k]
  rfl

include hrank hsize hl0 hl1 hr0 hr1 in
/-- The host's lines of the second convolution's dense stage are conv2. -/
theorem conv2_of_host (agg : FVec Ideal ⟨2, ![R, K]⟩ .f32) (din : FVec Ideal ⟨1, ![R]⟩ .f32)
    (W : FVec Ideal ⟨2, ![K, N]⟩ .f32) (b : FVec Ideal ⟨1, ![N]⟩ .f32) :
    maximumf (addf (Host.dotGeneral d none
          (mulf agg (broadcastInDim ⟨2, ![R, K]⟩ ![0, 1] hcK (broadcastInDim ⟨2, ![R, 1]⟩ ![0] hc1 (Host.rsqrt din)))) W)
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32))
      = conv2 agg (fun r => din (ix1 r)) W b := by
  rw [scaled_of_host hc1 hcK agg din]
  exact stage1_of_host d hrank hsize hl0 hl1 hr0 hr1 h1 h2 h0 _ W b

include hrank hsize hl0 hl1 hr0 hr1 in
/-- The host's lines of the first convolution's dense stage are conv1. -/
theorem conv1_of_host (agg : FVec Ideal ⟨2, ![R, K]⟩ .f32) (din dout : FVec Ideal ⟨1, ![R]⟩ .f32)
    (W : FVec Ideal ⟨2, ![K, N]⟩ .f32) (b : FVec Ideal ⟨1, ![N]⟩ .f32) :
    mulf (maximumf (addf (Host.dotGeneral d none
          (mulf agg (broadcastInDim ⟨2, ![R, K]⟩ ![0, 1] hcK (broadcastInDim ⟨2, ![R, 1]⟩ ![0] hc1 (Host.rsqrt din)))) W)
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32)))
      (broadcastInDim ⟨2, ![R, N]⟩ ![0, 1] hcN (broadcastInDim ⟨2, ![R, 1]⟩ ![0] hc1 (Host.rsqrt dout)))
      = conv1 agg (fun r => din (ix1 r)) (fun r => dout (ix1 r)) W b := by
  rw [conv2_of_host d hrank hsize hl0 hl1 hr0 hr1 h1 h2 h0 hc1 hcK agg din W b]
  exact scaled_of_host hc1 hcN _ dout

/-- The sums divided by max(1, count) laid along the lanes are the means. -/
theorem mean_of_host (s : FVec Ideal ⟨2, ![R, K]⟩ .f32) (cnt : FVec Ideal ⟨1, ![R]⟩ .f32)
    (hs : (⟨0, ![]⟩ : Shape).BroadcastsInDim ⟨1, ![R]⟩ (![] : Fin 0 → Fin 1)) :
    Host.divf s (broadcastInDim ⟨2, ![R, K]⟩ ![0, 1] hcK (broadcastInDim ⟨2, ![R, 1]⟩ ![0] hc1
        (maximumf (broadcastInDim ⟨1, ![R]⟩ ![] hs (id (constant (F := Ideal) ⟨0, ![]⟩ .f32 0x3F800000#32))) cnt)))
      = meanRows s (fun r => cnt (ix1 r)) := by
  funext j
  obtain ⟨p, k, rfl⟩ : ∃ (p : Fin R) (k : Fin K), j = ix2 p k := ⟨j 0, j 1, eq_ix2 j⟩
  show Ideal.div (s (ix2 p k)) (broadcastInDim ⟨2, ![R, K]⟩ ![0, 1] hcK (broadcastInDim ⟨2, ![R, 1]⟩ ![0] hc1
        (maximumf (broadcastInDim ⟨1, ![R]⟩ ![] hs (constant (F := Ideal) ⟨0, ![]⟩ .f32 0x3F800000#32)) cnt)) (ix2 p k)) = _
  rw [col_host _ hc1 hcK p k]
  show Ideal.div (s (ix2 p k)) (max (broadcastInDim ⟨1, ![R]⟩ ![] hs (constant (F := Ideal) ⟨0, ![]⟩ .f32 0x3F800000#32) (ix1 p)) (cnt (ix1 p))) = _
  rw [splat_host, max_comm]
  rfl

end Stages

/-- max is symmetric on arrays of extended reals. -/
theorem maxf_comm {s : Shape} (a b : FVec Ideal s .f32) : maximumf a b = maximumf b a :=
  funext fun i => max_comm (a i) (b i)

end Cert.HostSpell

end
-- ==== Proof.RefStages.lean ====
/-
  The reference's dense stages as the specification's functions. Its lines for the first convolution — the aggregate
  times rsqrt of the in-degrees, dot_general, bias, max with 0, times rsqrt of the out-degrees — are conv1 of the
  aggregate, the two clamped degree vectors, the weights and the bias; the second convolution's lines are conv2; and its
  last lines — sums / max(1, counts), two rectified dense layers, a last dense layer — are head.
-/
import proofs.«158197_j29703993819342_2_alg».proof.Proof.Gen.ReferenceIdeal.Read
import proofs.«158197_j29703993819342_2_alg».proof.Proof.LibHostDense

set_option maxRecDepth 16384

noncomputable section

namespace Cert.ReferenceIdeal.Stages

open Cert.ReferenceIdeal Cert.ReferenceIdeal.Read
open Idealize.ShloMosaic Idealize.ShloMosaic.TcCoe Idealize.ShloMosaic.ValueIdx
open Cert.GraphSpec Cert.LibDenseLayers Cert.HostSpell

/-- The first convolution's dense stage, scaled for the next layer's gather. -/
theorem conv1_eq (x0 : (⟨S100000x64, .f32⟩ : BufTy).Contents (Elt Ideal)) (x1 x2 : (⟨S1600000, .i32⟩ : BufTy).Contents (Elt Ideal))
    (x4 : (⟨S64x128, .f32⟩ : BufTy).Contents (Elt Ideal)) (x5 : (⟨S128, .f32⟩ : BufTy).Contents (Elt Ideal)) :
    val_main_v44 (F := Ideal) x0 x1 x2 x4 x5
      = conv1 (R := 100000) (K := 64) (N := 128) (val_main_v22 (F := Ideal) x0 x1 x2) (fun r => val_main_v8 (F := Ideal) x2 (ix1 r))
          (fun r => val_main_v36 (F := Ideal) x1 (ix1 r)) x4 x5 := by
  unfold val_main_v44 val_main_v31 val_main_v30 val_main_v27 val_main_v26 val_main_v25 val_main_v24 val_main_v23
    val_main_v29 val_main_v28 val_main_call2_v0 val_main_call2_cst val_main_v43 val_main_v42 val_main_v41
  exact conv1_of_host (R := 100000) (K := 64) (N := 128) Cert.ReferenceIdeal.dot_S100000x64_S64x128_S100000x128_1_0_0_1_n_n rfl rfl lhs_main_v27_0 lhs_main_v27_1 rhs_main_v27_0 rhs_main_v27_1 _ _ _ _ _ _ _ _ _ x4 x5

/-- The second convolution's dense stage. -/
theorem conv2_eq (x0 : (⟨S100000x64, .f32⟩ : BufTy).Contents (Elt Ideal)) (x1 x2 : (⟨S1600000, .i32⟩ : BufTy).Contents (Elt Ideal))
    (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v63 (F := Ideal) x0 x1 x2 x4 x5 x6 x7
      = conv2 (R := 100000) (K := 128) (N := 128) (val_main_v54 (F := Ideal) x0 x1 x2 x4 x5) (fun r => val_main_v40 (F := Ideal) x2 (ix1 r)) x6 x7 := by
  unfold val_main_v63 val_main_v62 val_main_v59 val_main_v58 val_main_v57 val_main_v56 val_main_v55
    val_main_v61 val_main_v60 val_main_call5_v0 val_main_call5_cst
  exact conv2_of_host (R := 100000) (K := 128) (N := 128) Cert.ReferenceIdeal.dot_S100000x128_S128x128_S100000x128_1_0_0_1_n_n rfl rfl lhs_main_v59_0 lhs_main_v59_1 rhs_main_v59_0 rhs_main_v59_1 _ _ _ _ _ _ _ x6 x7

/-- The mean pooling and the classifier. -/
theorem head_eq (x0 : (⟨S100000x64, .f32⟩ : BufTy).Contents (Elt Ideal)) (x1 x2 : (⟨S1600000, .i32⟩ : BufTy).Contents (Elt Ideal))
    (x3 : (⟨S100000, .i32⟩ : BufTy).Contents (Elt Ideal))
    (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S128x1, .f32⟩ : BufTy).Contents (Elt Ideal)) (x13 : (⟨S1, .f32⟩ : BufTy).Contents (Elt Ideal)) :
    val_main_v88 (F := Ideal) x0 x1 x2 x3 x4 x5 x6 x7 x8 x9 x10 x11 x12 x13
      = head (R := 512) (K := 128) (N := 128) (M := 128) (val_main_v66 (F := Ideal) x0 x1 x2 x3 x4 x5 x6 x7)
          (fun r => val_main_v70 (F := Ideal) x3 (ix1 r)) x8 x9 x10 x11 x12 x13 := by
  unfold val_main_v88 val_main_v85 val_main_v87 val_main_v86 val_main_v84 val_main_call8_v0 val_main_call8_cst val_main_v83 val_main_v82 val_main_v81
    val_main_v80 val_main_v79 val_main_call7_v0 val_main_call7_cst val_main_v78 val_main_v77 val_main_v76 val_main_v75 val_main_v74 val_main_v73
    val_main_v72 val_main_v71 val_main_call6_v1 val_main_call6_v0 val_main_cst_17
  rw [mean_of_host (R := 512) (K := 128) _ _ (val_main_v66 (F := Ideal) x0 x1 x2 x3 x4 x5 x6 x7) (val_main_v70 (F := Ideal) x3) _,
    stage1_of_host (R := 512) (K := 128) (N := 128) Cert.ReferenceIdeal.dot_S512x128_S128x128_S512x128_1_0_0_1_n_n rfl rfl lhs_main_v75_0 lhs_main_v75_1 rhs_main_v75_0 rhs_main_v75_1 _ _ _ _ x8 x9,
    stage1_of_host (R := 512) (K := 128) (N := 128) Cert.ReferenceIdeal.dot_S512x128_S128x128_S512x128_1_0_0_1_n_n rfl rfl lhs_main_v80_0 lhs_main_v80_1 rhs_main_v80_0 rhs_main_v80_1 _ _ _ _ x10 x11,
    affine_of_dot_any (R := 512) (K := 128) (N := 1) Cert.ReferenceIdeal.dot_S512x128_S128x1_S512x1_1_0_0_1_n_n rfl rfl lhs_main_v85_0 lhs_main_v85_1 rhs_main_v85_0 rhs_main_v85_1 _ _ _ x12 x13]
  rfl

end Cert.ReferenceIdeal.Stages

end
-- ==== Proof.KernelChain.lean ====
/-
  The program's value, segment by segment. Written a_k for the k-th argument array as launched.
  Before the first launch the host computes the two degree vectors (a scatter-add of ones, compared with 1), scales the
  features by rsqrt of the out-degrees, gathers them along the edges and scatter-adds them at the edges' heads: the
  launch finds the aggregate, the degree columns, the weights and the one-row bias, and by the first block module leaves
  conv1 of them, which is the reference's first dense stage. The host then gathers and scatter-adds that array again,
  the second launch leaves conv2, the host pools it by graph, and the third launch leaves head of the pooled sums and
  the counts. A change of float format is the identity on extended reals, max is symmetric, and every other host line is
  the same operation on both sides, so at each step the two terms are one.
-/
import proofs.«158197_j29703993819342_2_alg».proof.Proof.Gen.KernelIdeal.Frame
import proofs.«158197_j29703993819342_2_alg».proof.Proof.Gen.ReferenceIdeal.Read
import proofs.«158197_j29703993819342_2_alg».proof.Proof.LibGraphConv
import Idealize.ShloMosaic.Lib.Pipeline.Value
import Idealize.ShloMosaic.Lib.ValueIdx
import Idealize.ShloMosaic.Lib.StableHlo.Run
import proofs.«158197_j29703993819342_2_alg».proof.Proof.Conv1Blocks
import proofs.«158197_j29703993819342_2_alg».proof.Proof.Conv2Blocks
import proofs.«158197_j29703993819342_2_alg».proof.Proof.HeadBlock
import proofs.«158197_j29703993819342_2_alg».proof.Proof.RefStages

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.GraphSpec Cert.LibDenseLayers Cert.LibRowBias
open Cert.ReferenceIdeal.Read

variable (m : (ℓ : Loc nD τ sig) → Buf (Elt Ideal) ℓ) (ρ : Dev nD → PrngReg) (c : Dev nD)

open Cert.HostSpell Cert.ReferenceIdeal.Stages

/-! ## Buffers no earlier segment writes read back to their launch contents -/

theorem W2_arg1 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

theorem W2_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

theorem W2_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

theorem W2_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

theorem W2_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

theorem W2_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

theorem W2_arg9 : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl

theorem W2_arg10 : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := rfl

theorem W2_arg11 : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := rfl

theorem W2_arg12 : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg12) := rfl

theorem W2_arg13 : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg13) := rfl

theorem W4_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := W2_arg3 m ρ c

theorem W4_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := W2_arg8 m ρ c

theorem W4_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := W2_arg9 m ρ c

theorem W4_arg10 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := W2_arg10 m ρ c

theorem W4_arg11 : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := W2_arg11 m ρ c

theorem W4_arg12 : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg12) := W2_arg12 m ρ c

theorem W4_arg13 : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg13) := W2_arg13 m ρ c

/-! ## Before and after the first launch -/

theorem agg1_eq : V1 m ρ c main_v26 = val_main_v22 (F := Ideal) (m ((c : Thread nD τ).loc main_arg0)) (m ((c : Thread nD τ).loc main_arg1)) (m ((c : Thread nD τ).loc main_arg2)) := by
  show StableHlo.after hostOps0 (W0 m ρ c) (Proc.devRef .tc main_v26) = _
  after_results_simp
  rw [maxf_comm]
  rfl

theorem din1_eq : (fun r : Fin 100000 => V1 m ρ c main_v27 (ix2 r (0 : Fin 1))) = fun r => val_main_v8 (F := Ideal) (m ((c : Thread nD τ).loc main_arg2)) (ix1 r) := by
  have e : @Eq (S100000x1.Idx → EReal) (V1 m ρ c main_v27) (shapeCast S100000x1 (maximumf (F := Ideal) (φ := .f32) (s := S100000) (val_main_v7 (F := Ideal) (m ((c : Thread nD τ).loc main_arg2))) (val_main_call1_v1 (F := Ideal))) shapeCasts_S100000_S100000x1) := by
    show StableHlo.after hostOps0 (W0 m ρ c) (Proc.devRef .tc main_v27) = _
    after_results_simp
    rfl
  funext r
  refine (congrFun e (ix2 r (0 : Fin 1))).trans ?_
  refine (Cert.LibLayout.shapeCast_a_a1_apply _ _ r (0 : Fin 1)).trans ?_
  exact congrFun (maxf_comm (s := S100000) (val_main_v7 (F := Ideal) (m ((c : Thread nD τ).loc main_arg2))) (val_main_call1_v1 (F := Ideal))) (ix1 r)

theorem dout1_eq : (fun r : Fin 100000 => V1 m ρ c main_v28 (ix2 r (0 : Fin 1))) = fun r => val_main_v36 (F := Ideal) (m ((c : Thread nD τ).loc main_arg1)) (ix1 r) := by
  have e : @Eq (S100000x1.Idx → EReal) (V1 m ρ c main_v28) (shapeCast S100000x1 (maximumf (F := Ideal) (φ := .f32) (s := S100000) (val_main_v35 (F := Ideal) (m ((c : Thread nD τ).loc main_arg1))) (val_main_call3_v1 (F := Ideal))) shapeCasts_S100000_S100000x1) := by
    show StableHlo.after hostOps0 (W0 m ρ c) (Proc.devRef .tc main_v28) = _
    after_results_simp
    rfl
  funext r
  refine (congrFun e (ix2 r (0 : Fin 1))).trans ?_
  refine (Cert.LibLayout.shapeCast_a_a1_apply _ _ r (0 : Fin 1)).trans ?_
  exact congrFun (maxf_comm (s := S100000) (val_main_v35 (F := Ideal) (m ((c : Thread nD τ).loc main_arg1))) (val_main_call3_v1 (F := Ideal))) (ix1 r)

theorem w1_eq : V1 m ρ c main_arg4 = (m ((c : Thread nD τ).loc main_arg4)) := by
  show StableHlo.after hostOps0 (W0 m ρ c) (Proc.devRef .tc main_arg4) = _
  after_results_simp <;> rfl

theorem b1_eq : rowOf (V1 m ρ c main_v29) = (m ((c : Thread nD τ).loc main_arg5)) := by
  have e : (V1 m ρ c main_v29 : S1x128.Idx → EReal) = shapeCast S1x128 ((m ((c : Thread nD τ).loc main_arg5)) : S128.Idx → EReal) shapeCasts_S128_S1x128 := by
    show StableHlo.after hostOps0 (W0 m ρ c) (Proc.devRef .tc main_v29) = _
    after_results_simp
    rfl
  exact (congrArg rowOf e).trans (rowOf_shapeCast _ _)

/-- After the first launch its output array is the reference's first dense stage. -/
theorem h1_eq : W2 m ρ c (Proc.devRef .tc main_v30) = val_main_v44 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (W2_arr m ρ c 5).trans ?_
  rw [Cert.KernelIdeal.Conv1.final]
  unfold Cert.KernelIdeal.Conv1.G
  rw [agg1_eq, din1_eq, dout1_eq, w1_eq, b1_eq]
  exact (conv1_eq _ _ _ _ _).symm

end Cert.KernelIdeal.Chain

end
-- ==== Proof.KernelChain2.lean ====
/-
  The program's value, continued: between the first and the second launch the host gathers the first stage's rows
  along the edges and scatter-adds them at the edges' heads — the same two operations as the reference's, on the array
  the first launch left —, and the second launch leaves conv2 of that aggregate, the in-degree column, the weights and
  the bias: the reference's second dense stage.
-/
import proofs.«158197_j29703993819342_2_alg».proof.Proof.Gen.KernelIdeal.Frame
import proofs.«158197_j29703993819342_2_alg».proof.Proof.Gen.ReferenceIdeal.Read
import proofs.«158197_j29703993819342_2_alg».proof.Proof.LibGraphConv
import Idealize.ShloMosaic.Lib.Pipeline.Value
import Idealize.ShloMosaic.Lib.ValueIdx
import Idealize.ShloMosaic.Lib.StableHlo.Run
import proofs.«158197_j29703993819342_2_alg».proof.Proof.Conv1Blocks
import proofs.«158197_j29703993819342_2_alg».proof.Proof.Conv2Blocks
import proofs.«158197_j29703993819342_2_alg».proof.Proof.HeadBlock
import proofs.«158197_j29703993819342_2_alg».proof.Proof.RefStages
import proofs.«158197_j29703993819342_2_alg».proof.Proof.KernelChain

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.GraphSpec Cert.LibDenseLayers Cert.LibRowBias
open Cert.ReferenceIdeal.Read

variable (m : (ℓ : Loc nD τ sig) → Buf (Elt Ideal) ℓ) (ρ : Dev nD → PrngReg) (c : Dev nD)

open Cert.HostSpell Cert.ReferenceIdeal.Stages

/-! ## Between the first and the second launch, and after it -/

theorem agg2_eq : V3 m ρ c main_v41 = val_main_v54 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps1 (W2 m ρ c) (Proc.devRef .tc main_v41) = _
  after_results_simp
  rw [h1_eq, W2_arg1, W2_arg2]
  rfl

theorem deg2_eq : @Eq (S100000.Idx → EReal) (W2 m ρ c (Proc.devRef .tc main_v10)) (maximumf (F := Ideal) (φ := .f32) (s := S100000) (val_main_v39 (F := Ideal) (m ((c : Thread nD τ).loc main_arg2))) (val_main_call4_v1 (F := Ideal))) :=
  (W2_of_ne m ρ c main_v10 (by decide)).trans (by
    show StableHlo.after hostOps0 (W0 m ρ c) (Proc.devRef .tc main_v10) = _
    after_results_simp
    rfl)

theorem din2_eq : (fun r : Fin 100000 => V3 m ρ c main_v42 (ix2 r (0 : Fin 1))) = fun r => val_main_v40 (F := Ideal) (m ((c : Thread nD τ).loc main_arg2)) (ix1 r) := by
  have e : @Eq (S100000x1.Idx → EReal) (V3 m ρ c main_v42) (shapeCast (α := EReal) S100000x1 (W2 m ρ c (Proc.devRef .tc main_v10)) shapeCasts_S100000_S100000x1) := by
    show StableHlo.after hostOps1 (W2 m ρ c) (Proc.devRef .tc main_v42) = _
    after_results_simp
    rfl
  funext r
  refine (congrFun e (ix2 r (0 : Fin 1))).trans ?_
  refine (Cert.LibLayout.shapeCast_a_a1_apply _ _ r (0 : Fin 1)).trans ?_
  refine (congrFun (deg2_eq m ρ c) (ix1 r)).trans ?_
  exact congrFun (maxf_comm (s := S100000) (val_main_v39 (F := Ideal) (m ((c : Thread nD τ).loc main_arg2))) (val_main_call4_v1 (F := Ideal))) (ix1 r)

theorem w2_eq : V3 m ρ c main_arg6 = (m ((c : Thread nD τ).loc main_arg6)) := by
  show StableHlo.after hostOps1 (W2 m ρ c) (Proc.devRef .tc main_arg6) = _
  after_results_simp
  exact W2_arg6 m ρ c

theorem b2_eq : rowOf (V3 m ρ c main_v43) = (m ((c : Thread nD τ).loc main_arg7)) := by
  have e : (V3 m ρ c main_v43 : S1x128.Idx → EReal) = shapeCast S1x128 (W2 m ρ c (Proc.devRef .tc main_arg7) : S128.Idx → EReal) shapeCasts_S128_S1x128 := by
    show StableHlo.after hostOps1 (W2 m ρ c) (Proc.devRef .tc main_v43) = _
    after_results_simp
    rfl
  exact ((congrArg rowOf e).trans (rowOf_shapeCast _ _)).trans (W2_arg7 m ρ c)

/-- After the second launch its output array is the reference's second dense stage. -/
theorem h2_eq : W4 m ρ c (Proc.devRef .tc main_v44)
    = val_main_v63 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W4_arr m ρ c 4).trans ?_
  rw [Cert.KernelIdeal.Conv2.final]
  unfold Cert.KernelIdeal.Conv2.G
  rw [agg2_eq, din2_eq, w2_eq, b2_eq]
  exact (conv2_eq _ _ _ _ _ _ _).symm

end Cert.KernelIdeal.Chain

end
-- ==== Proof.KernelChain3.lean ====
/-
  The program's value, concluded: the host pools the second stage's rows by graph (a scatter-add of the rows, and of
  ones for the counts), and the third launch leaves head of the sums, the count column and the classifier's weights:
  the reference's result term of the arguments as launched.
-/
import proofs.«158197_j29703993819342_2_alg».proof.Proof.Gen.KernelIdeal.Frame
import proofs.«158197_j29703993819342_2_alg».proof.Proof.Gen.ReferenceIdeal.Read
import proofs.«158197_j29703993819342_2_alg».proof.Proof.LibGraphConv
import Idealize.ShloMosaic.Lib.Pipeline.Value
import Idealize.ShloMosaic.Lib.ValueIdx
import Idealize.ShloMosaic.Lib.StableHlo.Run
import proofs.«158197_j29703993819342_2_alg».proof.Proof.Conv1Blocks
import proofs.«158197_j29703993819342_2_alg».proof.Proof.Conv2Blocks
import proofs.«158197_j29703993819342_2_alg».proof.Proof.HeadBlock
import proofs.«158197_j29703993819342_2_alg».proof.Proof.RefStages
import proofs.«158197_j29703993819342_2_alg».proof.Proof.KernelChain2

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.GraphSpec Cert.LibDenseLayers Cert.LibRowBias
open Cert.ReferenceIdeal.Read

variable (m : (ℓ : Loc nD τ sig) → Buf (Elt Ideal) ℓ) (ρ : Dev nD → PrngReg) (c : Dev nD)

open Cert.HostSpell Cert.ReferenceIdeal.Stages

/-! ## Between the second and the third launch, and after it -/

/-- Widening a float format is the identity on arrays of extended reals. -/
theorem extf_same {s : Shape} (X : s.Idx → EReal) (h : (FTy.bf16).bits < (FTy.f32).bits) :
    @Eq (s.Idx → EReal) (extf (F := Ideal) (φ := .bf16) .f32 X h) X := rfl

theorem sums_eq : V5 m ρ c main_v48
    = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v48) = _
  after_results_simp
  rw [h2_eq, W4_arg3]
  unfold val_main_v66
  generalize val_main_v63 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) = X
  rw [extf_same]
  rfl

theorem cnt_eq : (fun r : Fin 512 => V5 m ρ c main_v53 (ix2 r (0 : Fin 1))) = fun r => val_main_v70 (F := Ideal) (m ((c : Thread nD τ).loc main_arg3)) (ix1 r) := by
  have e : (V5 m ρ c main_v53 : S512x1.Idx → EReal) = shapeCast S512x1 (val_main_v70 (F := Ideal) (m ((c : Thread nD τ).loc main_arg3)) : S512.Idx → EReal) shapeCasts_S512_S512x1 := by
    show StableHlo.after hostOps2 (W4 m ρ c) (Proc.devRef .tc main_v53) = _
    after_results_simp
    rw [W4_arg3]
    rfl
  funext r
  exact (congrFun e (ix2 r (0 : Fin 1))).trans (Cert.LibLayout.shapeCast_a_a1_apply _ _ r (0 : Fin 1))

theorem wc1_eq : V5 m ρ c main_arg8 = (m ((c : Thread nD τ).loc main_arg8)) := by
  show StableHlo.after hostOps2 (W4 m ρ c) (Proc.devRef .tc main_arg8) = _
  after_results_simp
  exact W4_arg8 m ρ c

theorem wc2_eq : V5 m ρ c main_arg10 = (m ((c : Thread nD τ).loc main_arg10)) := by
  show StableHlo.after hostOps2 (W4 m ρ c) (Proc.devRef .tc main_arg10) = _
  after_results_simp
  exact W4_arg10 m ρ c

theorem wc3_eq : V5 m ρ c main_arg12 = (m ((c : Thread nD τ).loc main_arg12)) := by
  show StableHlo.after hostOps2 (W4 m ρ c) (Proc.devRef .tc main_arg12) = _
  after_results_simp
  exact W4_arg12 m ρ c

theorem bc1_eq : rowOf (V5 m ρ c main_v54) = (m ((c : Thread nD τ).loc main_arg9)) := by
  have e : (V5 m ρ c main_v54 : S1x128.Idx → EReal) = shapeCast S1x128 (W4 m ρ c (Proc.devRef .tc main_arg9) : S128.Idx → EReal) shapeCasts_S128_S1x128 := by
    show StableHlo.after hostOps2 (W4 m ρ c) (Proc.devRef .tc main_v54) = _
    after_results_simp
    rfl
  exact ((congrArg rowOf e).trans (rowOf_shapeCast _ _)).trans (W4_arg9 m ρ c)

theorem bc2_eq : rowOf (V5 m ρ c main_v55) = (m ((c : Thread nD τ).loc main_arg11)) := by
  have e : (V5 m ρ c main_v55 : S1x128.Idx → EReal) = shapeCast S1x128 (W4 m ρ c (Proc.devRef .tc main_arg11) : S128.Idx → EReal) shapeCasts_S128_S1x128 := by
    show StableHlo.after hostOps2 (W4 m ρ c) (Proc.devRef .tc main_v55) = _
    after_results_simp
    rfl
  exact ((congrArg rowOf e).trans (rowOf_shapeCast _ _)).trans (W4_arg11 m ρ c)

theorem bc3_eq : rowOf (V5 m ρ c main_v56) = (m ((c : Thread nD τ).loc main_arg13)) := by
  have e : (V5 m ρ c main_v56 : S1x1.Idx → EReal) = shapeCast S1x1 (W4 m ρ c (Proc.devRef .tc main_arg13) : S1.Idx → EReal) shapeCasts_S1_S1x1 := by
    show StableHlo.after hostOps2 (W4 m ρ c) (Proc.devRef .tc main_v56) = _
    after_results_simp
    rfl
  exact ((congrArg rowOf e).trans (rowOf_shapeCast _ _)).trans (W4_arg13 m ρ c)

/-- After the third launch the result array is the reference's result term of the launch contents of the arguments. -/
theorem out_eq : W6 m ρ c (Proc.devRef .tc main_v57)
    = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W6_arr m ρ c 8).trans ?_
  rw [Cert.KernelIdeal.Head.final]
  unfold Cert.KernelIdeal.Head.G
  rw [sums_eq, cnt_eq, wc1_eq, bc1_eq, wc2_eq, bc2_eq, wc3_eq, bc3_eq]
  exact (head_eq _ _ _ _ _ _ _ _ _ _ _ _ _ _).symm

end Cert.KernelIdeal.Chain

end
-- ==== Proof.lean ====
/-
  A two-layer graph convolution with mean pooling and a three-layer classifier: the program with three dense kernels
  against its plain reference, on extended reals.

  Both programs compute, for node features x, edge lists src and dst and graph ids g:
    deg_out = max(#edges leaving a node, 1), deg_in = max(#edges entering it, 1);
    agg1 = sum over edges into a node of the tail's row of x / sqrt(deg_out);
    h1 = max(agg1 / sqrt(deg_in) · W1 + b1, 0);  agg2 = the same aggregation of h1 / sqrt(deg_out);
    h2 = max(agg2 / sqrt(deg_in) · W2 + b2, 0);  per graph, sums of the rows of h2 and counts of its nodes;
    the result = ((max((max((sums / max(counts, 1)) · Wc1 + bc1, 0)) · Wc2 + bc2, 0)) · Wc3 + bc3.
  The kernel program tiles the two dense stages over 25 blocks of 4000 rows and runs the classifier in one block;
  gathers, scatter-adds and degree counts are the same host operations on both sides. Its stores of bf16 values are the
  identity on extended reals, its matrix-unit products into zero are the same sums as the host's dot_general, max is
  symmetric, and each stage's row p depends only on row p of its row-indexed inputs, so blocks of rows assemble to the
  whole arrays. No step uses a law of arithmetic that fails at infinities, so the precondition is not opened.

  The three frames are the generated ones (the reference's is its generated run with the result dropped); the ideal
  pass rewrote nothing, so the sanctioned-idealization conjunct is trivial.
-/
import proofs.«158197_j29703993819342_2_alg».proof.Defs
import proofs.«158197_j29703993819342_2_alg».proof.Proof.Gen.Kernel
import proofs.«158197_j29703993819342_2_alg».proof.Proof.Gen.Kernel.Skeleton
import proofs.«158197_j29703993819342_2_alg».proof.Proof.Gen.Kernel.Launch
import proofs.«158197_j29703993819342_2_alg».proof.Proof.Gen.Kernel.Points
import proofs.«158197_j29703993819342_2_alg».proof.Proof.Gen.Kernel.Frame
import proofs.«158197_j29703993819342_2_alg».proof.Proof.Gen.KernelIdeal
import proofs.«158197_j29703993819342_2_alg».proof.Proof.Gen.KernelIdeal.Skeleton
import proofs.«158197_j29703993819342_2_alg».proof.Proof.Gen.KernelIdeal.Launch
import proofs.«158197_j29703993819342_2_alg».proof.Proof.Gen.KernelIdeal.Points
import proofs.«158197_j29703993819342_2_alg».proof.Proof.Gen.KernelIdeal.Frame
import proofs.«158197_j29703993819342_2_alg».proof.Proof.Gen.ReferenceIdeal
import proofs.«158197_j29703993819342_2_alg».proof.Proof.Gen.Pre_finite_inputs
import proofs.«158197_j29703993819342_2_alg».proof.Proof.Gen.ReferenceIdeal.Run
import proofs.«158197_j29703993819342_2_alg».proof.Proof.Gen.ReferenceIdeal.Read
import proofs.«158197_j29703993819342_2_alg».proof.Proof.KernelRun
import proofs.«158197_j29703993819342_2_alg».proof.Proof.KernelChain3
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments both programs end with the reference's result term of the kernel's
    launch contents: the kernel's run through its three launches, the reference's generated run. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => ⟨(h c).1.trans (Cert.KernelIdeal.Chain.out_eq m ρ c), (h c).2⟩)
      (Cert.KernelIdeal.Whole.run_last (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v88_eq, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
